-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x3 : Shape := ⟨2, ![200000, 3]⟩
abbrev S128x3 : Shape := ⟨2, ![128, 3]⟩
abbrev S128 : Shape := ⟨1, ![128]⟩
abbrev S7x128x128 : Shape := ⟨3, ![7, 128, 128]⟩
abbrev S7x128 : Shape := ⟨2, ![7, 128]⟩
abbrev S1x128 : Shape := ⟨2, ![1, 128]⟩
abbrev S1 : Shape := ⟨1, ![1]⟩
abbrev S_ : Shape := ⟨0, ![]⟩

class Facts : Prop where
  bcast_S_S200000x3 : S_.BroadcastsInDim S200000x3 (![] : Fin 0 → Fin S200000x3.rank)
  reducesTo_S200000x3_S_d0_1 : S200000x3.ReducesTo [0, 1] S_
  h_S_ : 0 < S_.numel
  bcast_S_S128x3 : S_.BroadcastsInDim S128x3 (![] : Fin 0 → Fin S128x3.rank)
  reducesTo_S128x3_S_d0_1 : S128x3.ReducesTo [0, 1] S_
  bcast_S_S128 : S_.BroadcastsInDim S128 (![] : Fin 0 → Fin S128.rank)
  reducesTo_S128_S_d0 : S128.ReducesTo [0] S_
  bcast_S_S7x128x128 : S_.BroadcastsInDim S7x128x128 (![] : Fin 0 → Fin S7x128x128.rank)
  reducesTo_S7x128x128_S_d0_1_2 : S7x128x128.ReducesTo [0, 1, 2] S_
  bcast_S_S7x128 : S_.BroadcastsInDim S7x128 (![] : Fin 0 → Fin S7x128.rank)
  reducesTo_S7x128_S_d0_1 : S7x128.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S1x128 .f32) (main_arg8 : FVec F S1 .f32) (main_v33 : IVec S_ 1) : IVec S_ 1 :=
  let main_v34 : FVec F S1x128 .f32 := Host.absf main_arg7
  let main_cst_12 : FVec F S_ .f32 := constant S_ .f32 0x7F800000#32
  let main_v35 : FVec F S1x128 .f32 := broadcastInDim S1x128 ![] bcast_S_S1x128 main_cst_12
  let main_v36 : IVec S1x128 1 := cmpf .olt main_v34 main_v35
  let main_c_13 : IVec S_ 1 := constantI S_ 1 1#1
  let main_v37 : IVec S_ 1 := (fun x v => Host.reduce IntOp.andi x v reducesTo_S1x128_S_d0_1 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg4 : FVec F S7x128 .f32) (main_arg5 : FVec F S7x128x128 .f32) (main_arg6 : FVec F S7x128 .f32) (main_arg7 : FVec F S1x128 .f32) (main_arg8 : FVec F S1 .f32) (main_v13 : IVec S_ 1) (main_v16 : IVec S7x128x128 1) : IVec S_ 1 :=
  let main_c_5 : IVec S_ 1 := constantI S_ 1 1#1
  let main_v17 : IVec S_ 1 := (fun x v => Host.reduce IntOp.andi x v reducesTo_S7x128x128_S_d0_1_2 h_S_) main_v16 main_c_5
  let main_v18 : IVec S_ 1 := andi main_v13 main_v17
  let main_v19 : FVec F S7x128 .f32 := Host.absf main_arg4
  let main_cst_6 : FVec F S_ .f32 := constant S_ .f32 0x7F800000#32
  let main_v20 : FVec F S7x128 .f32 := broadcastInDim S7x128 ![] bcast_S_S7x128 main_cst_6
  let main_v21 : IVec S7x128 1 := cmpf .olt main_v19 main_v20
  let main_c_7 : IVec S_ 1 := constantI S_ 1 1#1
  let main_v22 : IVec S_ 1 := (fun x v => Host.reduce IntOp.andi x v reducesTo_S7x128_S_d0_1 h_S_) main_v21 main_c_7
  let main_v23 : IVec S_ 1 := andi main_v18 main_v22
  let main_v24 : FVec F S7x128x128 .f32 := Host.absf main_arg5
  let main_cst_8 : FVec F S_ .f32 := constant S_ .f32 0x7F800000#32
  let main_v25 : FVec F S7x128x128 .f32 := broadcastInDim S7x128x128 ![] bcast_S_S7x128x128 main_cst_8
  let main_v26 : IVec S7x128x128 1 := cmpf .olt main_v24 main_v25
  let main_c_9 : IVec S_ 1 := constantI S_ 1 1#1
  let main_v27 : IVec S_ 1 := (fun x v => Host.reduce IntOp.andi x v reducesTo_S7x128x128_S_d0_1_2 h_S_) main_v26 main_c_9
  let main_v28 : IVec S_ 1 := andi main_v23 main_v27
  let main_v29 : FVec F S7x128 .f32 := Host.absf main_arg6
  let main_cst_10 : FVec F S_ .f32 := constant S_ .f32 0x7F800000#32
  let main_v30 : FVec F S7x128 .f32 := broadcastInDim S7x128 ![] bcast_S_S7x128 main_cst_10
  let main_v31 : IVec S7x128 1 := cmpf .olt main_v29 main_v30
  let main_c_11 : IVec S_ 1 := constantI S_ 1 1#1
  let main_v32 : IVec S_ 1 := (fun x v => Host.reduce IntOp.andi x v reducesTo_S7x128_S_d0_1 h_S_) main_v31 main_c_11
  let main_v33 : IVec S_ 1 := andi main_v28 main_v32
  fn_part2 (F := F) main_arg7 main_arg8 main_v33

def fn {F : FTy → Type} [FloatOps F] (main_arg0 : FVec F S200000x3 .f32) (main_arg1 : FVec F S128x3 .f32) (main_arg2 : FVec F S128 .f32) (main_arg3 : FVec F S7x128x128 .f32) (main_arg4 : FVec F S7x128 .f32) (main_arg5 : FVec F S7x128x128 .f32) (main_arg6 : FVec F S7x128 .f32) (main_arg7 : FVec F S1x128 .f32) (main_arg8 : FVec F S1 .f32) : IVec S_ 1 :=
  let main_v0 : FVec F S200000x3 .f32 := Host.absf main_arg0
  let main_cst : FVec F S_ .f32 := constant S_ .f32 0x7F800000#32
  let main_v1 : FVec F S200000x3 .f32 := broadcastInDim S200000x3 ![] bcast_S_S200000x3 main_cst
  let main_v2 : IVec S200000x3 1 := cmpf .olt main_v0 main_v1
  let main_c : IVec S_ 1 := constantI S_ 1 1#1
  let main_v3 : IVec S_ 1 := (fun x v => Host.reduce IntOp.andi x v reducesTo_S200000x3_S_d0_1 h_S_) main_v2 main_c
  let main_v4 : FVec F S128x3 .f32 := Host.absf main_arg1
  let main_cst_0 : FVec F S_ .f32 := constant S_ .f32 0x7F800000#32
  let main_v5 : FVec F S128x3 .f32 := broadcastInDim S128x3 ![] bcast_S_S128x3 main_cst_0
  let main_v6 : IVec S128x3 1 := cmpf .olt main_v4 main_v5
  let main_c_1 : IVec S_ 1 := constantI S_ 1 1#1
  let main_v7 : IVec S_ 1 := (fun x v => Host.reduce IntOp.andi x v reducesTo_S128x3_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S7x128x128 .f32 := Host.absf main_arg3
  let main_cst_4 : FVec F S_ .f32 := constant S_ .f32 0x7F800000#32
  let main_v15 : FVec F S7x128x128 .f32 := broadcastInDim S7x128x128 ![] bcast_S_S7x128x128 main_cst_4
  let main_v16 : IVec S7x128x128 1 := cmpf .olt main_v14 main_v15
  fn_part1 (F := F) main_arg4 main_arg5 main_arg6 main_arg7 main_arg8 main_v13 main_v16
-- ==== Kernel.lean ====
abbrev S200000x3 : Shape := ⟨2, ![200000, 3]⟩
abbrev S128x3 : Shape := ⟨2, ![128, 3]⟩
abbrev S128 : Shape := ⟨1, ![128]⟩
abbrev S7x128x128 : Shape := ⟨3, ![7, 128, 128]⟩
abbrev S7x128 : Shape := ⟨2, ![7, 128]⟩
abbrev S1x128 : Shape := ⟨2, ![1, 128]⟩
abbrev S1 : Shape := ⟨1, ![1]⟩
abbrev S3x128 : Shape := ⟨2, ![3, 128]⟩
abbrev S7 : Shape := ⟨1, ![7]⟩
abbrev S_ : Shape := ⟨0, ![]⟩
abbrev S7x1x1 : Shape := ⟨3, ![7, 1, 1]⟩
abbrev S7x1x128 : Shape := ⟨3, ![7, 1, 128]⟩
abbrev S1x1 : Shape := ⟨2, ![1, 1]⟩
abbrev S200000x1 : Shape := ⟨2, ![200000, 1]⟩
abbrev S4000x3 : Shape := ⟨2, ![4000, 3]⟩
abbrev S4000x1 : Shape := ⟨2, ![4000, 1]⟩
abbrev S4000x128 : Shape := ⟨2, ![4000, 128]⟩
abbrev S1x128x128 : Shape := ⟨3, ![1, 128, 128]⟩
abbrev S128x128 : Shape := ⟨2, ![128, 128]⟩
abbrev S1x1x128 : Shape := ⟨3, ![1, 1, 128]⟩
abbrev S4000 : Shape := ⟨1, ![4000]⟩

abbrev nBuf : Space → Nat
  | .hbm => 30
  | .vmem => 12
  | .smem => 0
  | _ => 0

abbrev bufTy : (tb : Table) → Fin (tcTables nBuf tb) → BufTy
  | .hbm, ⟨0, _⟩ => ⟨S200000x3, .f32⟩
  | .hbm, ⟨1, _⟩ => ⟨S128x3, .f32⟩
  | .hbm, ⟨2, _⟩ => ⟨S128, .f32⟩
  | .hbm, ⟨3, _⟩ => ⟨S7x128x128, .f32⟩
  | .hbm, ⟨4, _⟩ => ⟨S7x128, .f32⟩
  | .hbm, ⟨5, _⟩ => ⟨S7x128x128, .f32⟩
  | .hbm, ⟨6, _⟩ => ⟨S7x128, .f32⟩
  | .hbm, ⟨7, _⟩ => ⟨S1x128, .f32⟩
  | .hbm, ⟨8, _⟩ => ⟨S1, .f32⟩
  | .hbm, ⟨9, _⟩ => ⟨S3x128, .f32⟩
  | .hbm, ⟨10, _⟩ => ⟨S1x128, .f32⟩
  | .hbm, ⟨11, _⟩ => ⟨S7, .i32⟩
  | .hbm, ⟨12, _⟩ => ⟨S_, .i32⟩
  | .hbm, ⟨13, _⟩ => ⟨S7, .i32⟩
  | .hbm, ⟨14, _⟩ => ⟨S7, .i1⟩
  | .hbm, ⟨15, _⟩ => ⟨S_, .f32⟩
  | .hbm, ⟨16, _⟩ => ⟨S_, .f32⟩
  | .hbm, ⟨17, _⟩ => ⟨S7, .f32⟩
  | .hbm, ⟨18, _⟩ => ⟨S7, .f32⟩
  | .hbm, ⟨19, _⟩ => ⟨S7, .f32⟩
  | .hbm, ⟨20, _⟩ => ⟨S7, .f32⟩
  | .hbm, ⟨21, _⟩ => ⟨S7x1x1, .f32⟩
  | .hbm, ⟨22, _⟩ => ⟨S7x128x128, .f32⟩
  | .hbm, ⟨23, _⟩ => ⟨S7x128x128, .f32⟩
  | .hbm, ⟨24, _⟩ => ⟨S7x128x128, .f32⟩
  | .hbm, ⟨25, _⟩ => ⟨S7x1x128, .f32⟩
  | .hbm, ⟨26, _⟩ => ⟨S7x128x128, .f32⟩
  | .hbm, ⟨27, _⟩ => ⟨S7x1x128, .f32⟩
  | .hbm, ⟨28, _⟩ => ⟨S1x1, .f32⟩
  | .hbm, ⟨29, _⟩ => ⟨S200000x1, .f32⟩
  | .local _ .vmem, ⟨0, _⟩ => ⟨S4000x3, .f32⟩
  | .local _ .vmem, ⟨1, _⟩ => ⟨S4000x3, .f32⟩
  | .local _ .vmem, ⟨2, _⟩ => ⟨S3x128, .f32⟩
  | .local _ .vmem, ⟨3, _⟩ => ⟨S1x128, .f32⟩
  | .local _ .vmem, ⟨4, _⟩ => ⟨S7x128x128, .f32⟩
  | .local _ .vmem, ⟨5, _⟩ => ⟨S7x1x128, .f32⟩
  | .local _ .vmem, ⟨6, _⟩ => ⟨S7x128x128, .f32⟩
  | .local _ .vmem, ⟨7, _⟩ => ⟨S7x1x128, .f32⟩
  | .local _ .vmem, ⟨8, _⟩ => ⟨S1x128, .f32⟩
  | .local _ .vmem, ⟨9, _⟩ => ⟨S1x1, .f32⟩
  | .local _ .vmem, ⟨10, _⟩ => ⟨S4000x1, .f32⟩
  | .local _ .vmem, ⟨11, _⟩ => ⟨S4000x1, .f32⟩
  | _, _ => ⟨S200000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_c : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_cst_0 : Ref sig .tc := ⟨.hbm, 16, rfl⟩
abbrev main_call0_v0 : Ref sig .tc := ⟨.hbm, 17, rfl⟩
abbrev main_call0_v1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S7x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S7x1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4000x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  transposes_S128x3_S3x128_1_0 : S128x3.Transposes [1, 0] S3x128
  shapeCasts_S128_S1x128 : S128.ShapeCasts S1x128
  bcast_S_S7 : S_.BroadcastsInDim S7 (![] : Fin 0 → Fin S7.rank)
  bcast_S7_S7x1x1_0 : S7.BroadcastsInDim S7x1x1 (![0] : Fin 1 → Fin S7x1x1.rank)
  bcast_S7x1x1_S7x128x128_0_1_2 : S7x1x1.BroadcastsInDim S7x128x128 (![0, 1, 2] : Fin 3 → Fin S7x128x128.rank)
  transposes_S7x128x128_S7x128x128_0_2_1 : S7x128x128.Transposes [0, 2, 1] S7x128x128
  shapeCasts_S7x128_S7x1x128 : S7x128.ShapeCasts S7x1x128
  shapeCasts_S1_S1x1 : S1.ShapeCasts S1x1
  inb_S4000x3_S4000x3_0_0 : ∀ a, (![0, 0] : Fin 2 → Nat) a + S4000x3.size a ≤ S4000x3.size a
  h_S4000x3 : 0 < S4000x3.numel
  inb_S3x128_S3x128_0_0 : ∀ a, (![0, 0] : Fin 2 → Nat) a + S3x128.size a ≤ S3x128.size a
  h_S3x128 : 0 < S3x128.numel
  shapeCasts_S3x128_S3x128 : S3x128.ShapeCasts S3x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S7x128x128_S1x128x128_0_0_0 : ∀ a, (![0, 0, 0] : Fin 3 → Nat) a + S1x128x128.size a ≤ S7x128x128.size a
  h_S1x128x128 : 0 < S1x128x128.numel
  shapeCasts_S1x128x128_S128x128 : S1x128x128.ShapeCasts S128x128
  inb_S7x1x128_S1x1x128_0_0_0 : ∀ a, (![0, 0, 0] : Fin 3 → Nat) a + S1x1x128.size a ≤ S7x1x128.size a
  h_S1x1x128 : 0 < S1x1x128.numel
  shapeCasts_S1x1x128_S1x128 : S1x1x128.ShapeCasts S1x128
  inb_S7x128x128_S1x128x128_1_0_0 : ∀ a, (![1, 0, 0] : Fin 3 → Nat) a + S1x128x128.size a ≤ S7x128x128.size a
  inb_S7x1x128_S1x1x128_1_0_0 : ∀ a, (![1, 0, 0] : Fin 3 → Nat) a + S1x1x128.size a ≤ S7x1x128.size a
  inb_S7x128x128_S1x128x128_2_0_0 : ∀ a, (![2, 0, 0] : Fin 3 → Nat) a + S1x128x128.size a ≤ S7x128x128.size a
  inb_S7x1x128_S1x1x128_2_0_0 : ∀ a, (![2, 0, 0] : Fin 3 → Nat) a + S1x1x128.size a ≤ S7x1x128.size a
  inb_S7x128x128_S1x128x128_3_0_0 : ∀ a, (![3, 0, 0] : Fin 3 → Nat) a + S1x128x128.size a ≤ S7x128x128.size a
  inb_S7x1x128_S1x1x128_3_0_0 : ∀ a, (![3, 0, 0] : Fin 3 → Nat) a + S1x1x128.size a ≤ S7x1x128.size a
  inb_S7x128x128_S1x128x128_4_0_0 : ∀ a, (![4, 0, 0] : Fin 3 → Nat) a + S1x128x128.size a ≤ S7x128x128.size a
  inb_S7x1x128_S1x1x128_4_0_0 : ∀ a, (![4, 0, 0] : Fin 3 → Nat) a + S1x1x128.size a ≤ S7x1x128.size a
  inb_S7x128x128_S1x128x128_5_0_0 : ∀ a, (![5, 0, 0] : Fin 3 → Nat) a + S1x128x128.size a ≤ S7x128x128.size a
  inb_S7x1x128_S1x1x128_5_0_0 : ∀ a, (![5, 0, 0] : Fin 3 → Nat) a + S1x1x128.size a ≤ S7x1x128.size a
  inb_S7x128x128_S1x128x128_6_0_0 : ∀ a, (![6, 0, 0] : Fin 3 → Nat) a + S1x128x128.size a ≤ S7x128x128.size a
  inb_S7x1x128_S1x1x128_6_0_0 : ∀ a, (![6, 0, 0] : Fin 3 → Nat) a + S1x1x128.size a ≤ S7x1x128.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  reduces_S4000x128_S4000 : S4000x128.Reduces [1] S4000
  shapeCasts_S4000_S4000x1 : S4000.ShapeCasts S4000x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  dot_S4000x3_S3x128_S4000x128_1_0_0_1_n_n_wf : DotDims.WF S4000x3 S3x128 S4000x128 [1] [0] [0] [1] [] []
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x3.size a ≤ S200000x3.size a
  hwx0_0 : ∀ i : grid0.Coords, EltTy.bits .f32 = 32 ∨ (Rect.block (s := S200000x3) S4000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x128.size a ≤ S3x128.size a
  hwx0_1 : ∀ i : grid0.Coords, EltTy.bits .f32 = 32 ∨ (Rect.block (s := S3x128) S3x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S7x128x128.size a ≤ S7x128x128.size a
  hwx0_3 : ∀ i : grid0.Coords, EltTy.bits .f32 = 32 ∨ (Rect.block (s := S7x128x128) S7x128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S7x1x128.size a ≤ S7x1x128.size a
  hwx0_4 : ∀ i : grid0.Coords, EltTy.bits .f32 = 32 ∨ (Rect.block (s := S7x1x128) S7x1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7x128x128.size a ≤ S7x128x128.size a
  hwx0_5 : ∀ i : grid0.Coords, EltTy.bits .f32 = 32 ∨ (Rect.block (s := S7x128x128) S7x128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S7x1x128.size a ≤ S7x1x128.size a
  hwx0_6 : ∀ i : grid0.Coords, EltTy.bits .f32 = 32 ∨ (Rect.block (s := S7x1x128) S7x1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S4000x1.size a ≤ S200000x1.size a
  hwx0_9 : ∀ i : grid0.Coords, EltTy.bits .f32 = 32 ∨ (Rect.block (s := S200000x1) S4000x1.size (cc0_transform_9 i) (hinb0_9 i)).WholeWords (EltTy.packing .f32)

variable [Facts₀]

def dot_S4000x3_S3x128_S4000x128_1_0_0_1_n_n : DotDims S4000x3 S3x128 S4000x128 where
  lhsContracting := [1]
  rhsContracting := [0]
  lhsNonContracting := [0]
  rhsNonContracting := [1]
  lhsBatch := []
  rhsBatch := []
  wf := dot_S4000x3_S3x128_S4000x128_1_0_0_1_n_n_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S3x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S7x128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S7x1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S7x128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S7x1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v15) S4000x1.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S200000x3 : Shape := ⟨2, ![200000, 3]⟩
abbrev S128x3 : Shape := ⟨2, ![128, 3]⟩
abbrev S128 : Shape := ⟨1, ![128]⟩
abbrev S7x128x128 : Shape := ⟨3, ![7, 128, 128]⟩
abbrev S7x128 : Shape := ⟨2, ![7, 128]⟩
abbrev S1x128 : Shape := ⟨2, ![1, 128]⟩
abbrev S1 : Shape := ⟨1, ![1]⟩
abbrev S200000x128 : Shape := ⟨2, ![200000, 128]⟩
abbrev S_ : Shape := ⟨0, ![]⟩
abbrev S1x128x128 : Shape := ⟨3, ![1, 128, 128]⟩
abbrev S128x128 : Shape := ⟨2, ![128, 128]⟩
abbrev S200000x1 : Shape := ⟨2, ![200000, 1]⟩
abbrev S1x1 : Shape := ⟨2, ![1, 1]⟩

abbrev nBuf : Space → Nat
  | .hbm => 238
  | .vmem => 0
  | .smem => 0
  | _ => 0

abbrev hbmTy0_0 (i : Nat) : BufTy := match i % 128 with
  | 0 => ⟨S200000x3, .f32⟩
  | 1 => ⟨S128x3, .f32⟩
  | 2 => ⟨S128, .f32⟩
  | 3 => ⟨S7x128x128, .f32⟩
  | 4 => ⟨S7x128, .f32⟩
  | 5 => ⟨S7x128x128, .f32⟩
  | 6 => ⟨S7x128, .f32⟩
  | 7 => ⟨S1x128, .f32⟩
  | 8 => ⟨S1, .f32⟩
  | 9 => ⟨S200000x128, .f32⟩
  | 10 => ⟨S1x128, .f32⟩
  | 11 => ⟨S200000x128, .f32⟩
  | 12 => ⟨S200000x128, .f32⟩
  | 13 => ⟨S_, .f32⟩
  | 14 => ⟨S200000x128, .f32⟩
  | 15 => ⟨S200000x128, .f32⟩
  | 16 => ⟨S200000x128, .f32⟩
  | 17 => ⟨S_, .f32⟩
  | 18 => ⟨S200000x128, .f32⟩
  | 19 => ⟨S200000x128, .f32⟩
  | 20 => ⟨S1x128x128, .f32⟩
  | 21 => ⟨S128x128, .f32⟩
  | 22 => ⟨S200000x128, .f32⟩
  | 23 => ⟨S1x128, .f32⟩
  | 24 => ⟨S128, .f32⟩
  | 25 => ⟨S1x128, .f32⟩
  | 26 => ⟨S200000x128, .f32⟩
  | 27 => ⟨S200000x128, .f32⟩
  | 28 => ⟨S_, .f32⟩
  | 29 => ⟨S200000x128, .f32⟩
  | 30 => ⟨S200000x128, .f32⟩
  | 31 => ⟨S200000x128, .f32⟩
  | 32 => ⟨S1x128x128, .f32⟩
  | 33 => ⟨S128x128, .f32⟩
  | 34 => ⟨S200000x128, .f32⟩
  | 35 => ⟨S1x128, .f32⟩
  | 36 => ⟨S128, .f32⟩
  | 37 => ⟨S1x128, .f32⟩
  | 38 => ⟨S200000x128, .f32⟩
  | 39 => ⟨S200000x128, .f32⟩
  | 40 => ⟨S_, .f32⟩
  | 41 => ⟨S200000x128, .f32⟩
  | 42 => ⟨S200000x128, .f32⟩
  | 43 => ⟨S200000x128, .f32⟩
  | 44 => ⟨S200000x128, .f32⟩
  | 45 => ⟨S_, .f32⟩
  | 46 => ⟨S200000x128, .f32⟩
  | 47 => ⟨S200000x128, .f32⟩
  | 48 => ⟨S_, .f32⟩
  | 49 => ⟨S200000x128, .f32⟩
  | 50 => ⟨S200000x128, .f32⟩
  | 51 => ⟨S1x128x128, .f32⟩
  | 52 => ⟨S128x128, .f32⟩
  | 53 => ⟨S200000x128, .f32⟩
  | 54 => ⟨S1x128, .f32⟩
  | 55 => ⟨S128, .f32⟩
  | 56 => ⟨S1x128, .f32⟩
  | 57 => ⟨S200000x128, .f32⟩
  | 58 => ⟨S200000x128, .f32⟩
  | 59 => ⟨S_, .f32⟩
  | 60 => ⟨S200000x128, .f32⟩
  | 61 => ⟨S200000x128, .f32⟩
  | 62 => ⟨S200000x128, .f32⟩
  | 63 => ⟨S1x128x128, .f32⟩
  | 64 => ⟨S128x128, .f32⟩
  | 65 => ⟨S200000x128, .f32⟩
  | 66 => ⟨S1x128, .f32⟩
  | 67 => ⟨S128, .f32⟩
  | 68 => ⟨S1x128, .f32⟩
  | 69 => ⟨S200000x128, .f32⟩
  | 70 => ⟨S200000x128, .f32⟩
  | 71 => ⟨S_, .f32⟩
  | 72 => ⟨S200000x128, .f32⟩
  | 73 => ⟨S200000x128, .f32⟩
  | 74 => ⟨S200000x128, .f32⟩
  | 75 => ⟨S200000x128, .f32⟩
  | 76 => ⟨S_, .f32⟩
  | 77 => ⟨S200000x128, .f32⟩
  | 78 => ⟨S200000x128, .f32⟩
  | 79 => ⟨S_, .f32⟩
  | 80 => ⟨S200000x128, .f32⟩
  | 81 => ⟨S200000x128, .f32⟩
  | 82 => ⟨S1x128x128, .f32⟩
  | 83 => ⟨S128x128, .f32⟩
  | 84 => ⟨S200000x128, .f32⟩
  | 85 => ⟨S1x128, .f32⟩
  | 86 => ⟨S128, .f32⟩
  | 87 => ⟨S1x128, .f32⟩
  | 88 => ⟨S200000x128, .f32⟩
  | 89 => ⟨S200000x128, .f32⟩
  | 90 => ⟨S_, .f32⟩
  | 91 => ⟨S200000x128, .f32⟩
  | 92 => ⟨S200000x128, .f32⟩
  | 93 => ⟨S200000x128, .f32⟩
  | 94 => ⟨S1x128x128, .f32⟩
  | 95 => ⟨S128x128, .f32⟩
  | 96 => ⟨S200000x128, .f32⟩
  | 97 => ⟨S1x128, .f32⟩
  | 98 => ⟨S128, .f32⟩
  | 99 => ⟨S1x128, .f32⟩
  | 100 => ⟨S200000x128, .f32⟩
  | 101 => ⟨S200000x128, .f32⟩
  | 102 => ⟨S_, .f32⟩
  | 103 => ⟨S200000x128, .f32⟩
  | 104 => ⟨S200000x128, .f32⟩
  | 105 => ⟨S200000x128, .f32⟩
  | 106 => ⟨S200000x128, .f32⟩
  | 107 => ⟨S_, .f32⟩
  | 108 => ⟨S200000x128, .f32⟩
  | 109 => ⟨S200000x128, .f32⟩
  | 110 => ⟨S_, .f32⟩
  | 111 => ⟨S200000x128, .f32⟩
  | 112 => ⟨S200000x128, .f32⟩
  | 113 => ⟨S1x128x128, .f32⟩
  | 114 => ⟨S128x128, .f32⟩
  | 115 => ⟨S200000x128, .f32⟩
  | 116 => ⟨S1x128, .f32⟩
  | 117 => ⟨S128, .f32⟩
  | 118 => ⟨S1x128, .f32⟩
  | 119 => ⟨S200000x128, .f32⟩
  | 120 => ⟨S200000x128, .f32⟩
  | 121 => ⟨S_, .f32⟩
  | 122 => ⟨S200000x128, .f32⟩
  | 123 => ⟨S200000x128, .f32⟩
  | 124 => ⟨S200000x128, .f32⟩
  | 125 => ⟨S1x128x128, .f32⟩
  | 126 => ⟨S128x128, .f32⟩
  | 127 => ⟨S200000x128, .f32⟩
  | _ => ⟨S200000x3, .f32⟩

abbrev hbmTy0_1 (i : Nat) : BufTy := match i % 128 with
  | 0 => ⟨S1x128, .f32⟩
  | 1 => ⟨S128, .f32⟩
  | 2 => ⟨S1x128, .f32⟩
  | 3 => ⟨S200000x128, .f32⟩
  | 4 => ⟨S200000x128, .f32⟩
  | 5 => ⟨S_, .f32⟩
  | 6 => ⟨S200000x128, .f32⟩
  | 7 => ⟨S200000x128, .f32⟩
  | 8 => ⟨S200000x128, .f32⟩
  | 9 => ⟨S200000x128, .f32⟩
  | 10 => ⟨S_, .f32⟩
  | 11 => ⟨S200000x128, .f32⟩
  | 12 => ⟨S200000x128, .f32⟩
  | 13 => ⟨S_, .f32⟩
  | 14 => ⟨S200000x128, .f32⟩
  | 15 => ⟨S200000x128, .f32⟩
  | 16 => ⟨S1x128x128, .f32⟩
  | 17 => ⟨S128x128, .f32⟩
  | 18 => ⟨S200000x128, .f32⟩
  | 19 => ⟨S1x128, .f32⟩
  | 20 => ⟨S128, .f32⟩
  | 21 => ⟨S1x128, .f32⟩
  | 22 => ⟨S200000x128, .f32⟩
  | 23 => ⟨S200000x128, .f32⟩
  | 24 => ⟨S_, .f32⟩
  | 25 => ⟨S200000x128, .f32⟩
  | 26 => ⟨S200000x128, .f32⟩
  | 27 => ⟨S200000x128, .f32⟩
  | 28 => ⟨S1x128x128, .f32⟩
  | 29 => ⟨S128x128, .f32⟩
  | 30 => ⟨S200000x128, .f32⟩
  | 31 => ⟨S1x128, .f32⟩
  | 32 => ⟨S128, .f32⟩
  | 33 => ⟨S1x128, .f32⟩
  | 34 => ⟨S200000x128, .f32⟩
  | 35 => ⟨S200000x128, .f32⟩
  | 36 => ⟨S_, .f32⟩
  | 37 => ⟨S200000x128, .f32⟩
  | 38 => ⟨S200000x128, .f32⟩
  | 39 => ⟨S200000x128, .f32⟩
  | 40 => ⟨S200000x128, .f32⟩
  | 41 => ⟨S_, .f32⟩
  | 42 => ⟨S200000x128, .f32⟩
  | 43 => ⟨S200000x128, .f32⟩
  | 44 => ⟨S_, .f32⟩
  | 45 => ⟨S200000x128, .f32⟩
  | 46 => ⟨S200000x128, .f32⟩
  | 47 => ⟨S1x128x128, .f32⟩
  | 48 => ⟨S128x128, .f32⟩
  | 49 => ⟨S200000x128, .f32⟩
  | 50 => ⟨S1x128, .f32⟩
  | 51 => ⟨S128, .f32⟩
  | 52 => ⟨S1x128, .f32⟩
  | 53 => ⟨S200000x128, .f32⟩
  | 54 => ⟨S200000x128, .f32⟩
  | 55 => ⟨S_, .f32⟩
  | 56 => ⟨S200000x128, .f32⟩
  | 57 => ⟨S200000x128, .f32⟩
  | 58 => ⟨S200000x128, .f32⟩
  | 59 => ⟨S1x128x128, .f32⟩
  | 60 => ⟨S128x128, .f32⟩
  | 61 => ⟨S200000x128, .f32⟩
  | 62 => ⟨S1x128, .f32⟩
  | 63 => ⟨S128, .f32⟩
  | 64 => ⟨S1x128, .f32⟩
  | 65 => ⟨S200000x128, .f32⟩
  | 66 => ⟨S200000x128, .f32⟩
  | 67 => ⟨S_, .f32⟩
  | 68 => ⟨S200000x128, .f32⟩
  | 69 => ⟨S200000x128, .f32⟩
  | 70 => ⟨S200000x128, .f32⟩
  | 71 => ⟨S200000x128, .f32⟩
  | 72 => ⟨S_, .f32⟩
  | 73 => ⟨S200000x128, .f32⟩
  | 74 => ⟨S200000x128, .f32⟩
  | 75 => ⟨S_, .f32⟩
  | 76 => ⟨S200000x128, .f32⟩
  | 77 => ⟨S200000x128, .f32⟩
  | 78 => ⟨S1x128x128, .f32⟩
  | 79 => ⟨S128x128, .f32⟩
  | 80 => ⟨S200000x128, .f32⟩
  | 81 => ⟨S1x128, .f32⟩
  | 82 => ⟨S128, .f32⟩
  | 83 => ⟨S1x128, .f32⟩
  | 84 => ⟨S200000x128, .f32⟩
  | 85 => ⟨S200000x128, .f32⟩
  | 86 => ⟨S_, .f32⟩
  | 87 => ⟨S200000x128, .f32⟩
  | 88 => ⟨S200000x128, .f32⟩
  | 89 => ⟨S200000x128, .f32⟩
  | 90 => ⟨S1x128x128, .f32⟩
  | 91 => ⟨S128x128, .f32⟩
  | 92 => ⟨S200000x128, .f32⟩
  | 93 => ⟨S1x128, .f32⟩
  | 94 => ⟨S128, .f32⟩
  | 95 => ⟨S1x128, .f32⟩
  | 96 => ⟨S200000x128, .f32⟩
  | 97 => ⟨S200000x128, .f32⟩
  | 98 => ⟨S_, .f32⟩
  | 99 => ⟨S200000x128, .f32⟩
  | 100 => ⟨S200000x128, .f32⟩
  | 101 => ⟨S200000x128, .f32⟩
  | 102 => ⟨S200000x128, .f32⟩
  | 103 => ⟨S_, .f32⟩
  | 104 => ⟨S200000x128, .f32⟩
  | 105 => ⟨S200000x128, .f32⟩
  | 106 => ⟨S200000x1, .f32⟩
  | 107 => ⟨S1x1, .f32⟩
  | 108 => ⟨S200000x1, .f32⟩
  | 109 => ⟨S200000x1, .f32⟩
  | _ => ⟨S200000x3, .f32⟩

abbrev hbmTy (i : Nat) : BufTy := match i / 128 with
  | 0 => hbmTy0_0 i
  | 1 => hbmTy0_1 i
  | _ => ⟨S200000x3, .f32⟩

abbrev bufTy : (tb : Table) → Fin (tcTables nBuf tb) → BufTy
  | .hbm, ⟨i, _⟩ => hbmTy i
  | _, _ => ⟨S200000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_5 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_6 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_7 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_9 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_cst_10 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_11 : Ref sig .tc := ⟨.hbm, 107, rfl⟩
abbrev main_v86 : Ref sig .tc := ⟨.hbm, 108, rfl⟩
abbrev main_v87 : Ref sig .tc := ⟨.hbm, 109, rfl⟩
abbrev main_cst_12 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_13 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_cst_14 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_cst_15 : Ref sig .tc := ⟨.hbm, 138, rfl⟩
abbrev main_v113 : Ref sig .tc := ⟨.hbm, 139, rfl⟩
abbrev main_v114 : Ref sig .tc := ⟨.hbm, 140, rfl⟩
abbrev main_cst_16 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_cst_17 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_v133 : Ref sig .tc := ⟨.hbm, 161, rfl⟩
abbrev main_v134 : Ref sig .tc := ⟨.hbm, 162, rfl⟩
abbrev main_v135 : Ref sig .tc := ⟨.hbm, 163, rfl⟩
abbrev main_cst_18 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_cst_19 : Ref sig .tc := ⟨.hbm, 169, rfl⟩
abbrev main_v140 : Ref sig .tc := ⟨.hbm, 170, rfl⟩
abbrev main_v141 : Ref sig .tc := ⟨.hbm, 171, rfl⟩
abbrev main_cst_20 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_21 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_cst_22 : Ref sig .tc := ⟨.hbm, 195, rfl⟩
abbrev main_v163 : Ref sig .tc := ⟨.hbm, 196, rfl⟩
abbrev main_v164 : Ref sig .tc := ⟨.hbm, 197, rfl⟩
abbrev main_v165 : Ref sig .tc := ⟨.hbm, 198, rfl⟩
abbrev main_v166 : Ref sig .tc := ⟨.hbm, 199, rfl⟩
abbrev main_cst_23 : Ref sig .tc := ⟨.hbm, 200, rfl⟩
abbrev main_v167 : Ref sig .tc := ⟨.hbm, 201, rfl⟩
abbrev main_v168 : Ref sig .tc := ⟨.hbm, 202, rfl⟩
abbrev main_cst_24 : Ref sig .tc := ⟨.hbm, 203, rfl⟩
abbrev main_v169 : Ref sig .tc := ⟨.hbm, 204, rfl⟩
abbrev main_v170 : Ref sig .tc := ⟨.hbm, 205, rfl⟩
abbrev main_v171 : Ref sig .tc := ⟨.hbm, 206, rfl⟩
abbrev main_v172 : Ref sig .tc := ⟨.hbm, 207, rfl⟩
abbrev main_v173 : Ref sig .tc := ⟨.hbm, 208, rfl⟩
abbrev main_v174 : Ref sig .tc := ⟨.hbm, 209, rfl⟩
abbrev main_v175 : Ref sig .tc := ⟨.hbm, 210, rfl⟩
abbrev main_v176 : Ref sig .tc := ⟨.hbm, 211, rfl⟩
abbrev main_v177 : Ref sig .tc := ⟨.hbm, 212, rfl⟩
abbrev main_v178 : Ref sig .tc := ⟨.hbm, 213, rfl⟩
abbrev main_cst_25 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_v184 : Ref sig .tc := ⟨.hbm, 220, rfl⟩
abbrev main_v185 : Ref sig .tc := ⟨.hbm, 221, rfl⟩
abbrev main_v186 : Ref sig .tc := ⟨.hbm, 222, rfl⟩
abbrev main_v187 : Ref sig .tc := ⟨.hbm, 223, rfl⟩
abbrev main_v188 : Ref sig .tc := ⟨.hbm, 224, rfl⟩
abbrev main_v189 : Ref sig .tc := ⟨.hbm, 225, rfl⟩
abbrev main_cst_26 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_cst_27 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  slices_S7x128x128_S1x128x128_0_0_0 : S7x128x128.Slices ![0, 0, 0] S1x128x128
  shapeCasts_S1x128x128_S128x128 : S1x128x128.ShapeCasts S128x128
  slices_S7x128_S1x128_0_0 : S7x128.Slices ![0, 0] S1x128
  shapeCasts_S1x128_S128 : S1x128.ShapeCasts S128
  slices_S7x128x128_S1x128x128_1_0_0 : S7x128x128.Slices ![1, 0, 0] S1x128x128
  slices_S7x128_S1x128_1_0 : S7x128.Slices ![1, 0] S1x128
  slices_S7x128x128_S1x128x128_2_0_0 : S7x128x128.Slices ![2, 0, 0] S1x128x128
  slices_S7x128_S1x128_2_0 : S7x128.Slices ![2, 0] S1x128
  slices_S7x128x128_S1x128x128_3_0_0 : S7x128x128.Slices ![3, 0, 0] S1x128x128
  slices_S7x128_S1x128_3_0 : S7x128.Slices ![3, 0] S1x128
  slices_S7x128x128_S1x128x128_4_0_0 : S7x128x128.Slices ![4, 0, 0] S1x128x128
  slices_S7x128_S1x128_4_0 : S7x128.Slices ![4, 0] S1x128
  slices_S7x128x128_S1x128x128_5_0_0 : S7x128x128.Slices ![5, 0, 0] S1x128x128
  slices_S7x128_S1x128_5_0 : S7x128.Slices ![5, 0] S1x128
  slices_S7x128x128_S1x128x128_6_0_0 : S7x128x128.Slices ![6, 0, 0] S1x128x128
  slices_S7x128_S1x128_6_0 : S7x128.Slices ![6, 0] S1x128
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  dot_S200000x3_S128x3_S200000x128_1_1_0_0_n_n_wf : DotDims.WF S200000x3 S128x3 S200000x128 [1] [1] [0] [0] [] []
  dot_S200000x128_S128x128_S200000x128_1_1_0_0_n_n_wf : DotDims.WF S200000x128 S128x128 S200000x128 [1] [1] [0] [0] [] []
  dot_S200000x128_S1x128_S200000x1_1_1_0_0_n_n_wf : DotDims.WF S200000x128 S1x128 S200000x1 [1] [1] [0] [0] [] []

variable [Facts₀]

def dot_S200000x3_S128x3_S200000x128_1_1_0_0_n_n : DotDims S200000x3 S128x3 S200000x128 where
  lhsContracting := [1]
  rhsContracting := [1]
  lhsNonContracting := [0]
  rhsNonContracting := [0]
  lhsBatch := []
  rhsBatch := []
  wf := dot_S200000x3_S128x3_S200000x128_1_1_0_0_n_n_wf
def dot_S200000x128_S128x128_S200000x128_1_1_0_0_n_n : DotDims S200000x128 S128x128 S200000x128 where
  lhsContracting := [1]
  rhsContracting := [1]
  lhsNonContracting := [0]
  rhsNonContracting := [0]
  lhsBatch := []
  rhsBatch := []
  wf := dot_S200000x128_S128x128_S200000x128_1_1_0_0_n_n_wf
def dot_S200000x128_S1x128_S200000x1_1_1_0_0_n_n : DotDims S200000x128 S1x128 S200000x1 where
  lhsContracting := [1]
  rhsContracting := [1]
  lhsNonContracting := [0]
  rhsNonContracting := [0]
  lhsBatch := []
  rhsBatch := []
  wf := dot_S200000x128_S1x128_S200000x1_1_1_0_0_n_n_wf

class Facts : Prop extends Facts₀ where

variable [Facts]
-- ==== Proof.Spec.lean ====
/-
  The function both programs compute, written once over the extended reals, index by index.

  A sine network with residual blocks. For one input point `x ∈ ℝ³` (a row of the first argument):
    h₀      = sin (30 · (W₀ x + b₀))                                            (128 hidden units)
    s₁      = sin (30 · (W₁ᵢ (c₁ᵢ · hᵢ) + b₁ᵢ)),   s₂ = sin (30 · (W₂ᵢ s₁ + b₂ᵢ)),
    hᵢ₊₁    = c₂ᵢ · (hᵢ + s₂)                                                    (i = 0 … 6)
    out     = ⟨h₇, w_f⟩ + b_f
  with weights c₁ = 1, ½, ½, ½, ½, ½, ½ and c₂ = 1, 1, 1, 1, 1, 1, ½. The constants 30, 1 and ½ are kept as the
  float patterns both programs print; nothing here depends on their values.

  One program scales the hidden vector by c₁ before the matrix product, the other scales the matrix: the two
  agree because multiplication of extended reals is commutative and associative (`dense_scaled`) — no
  distributivity, hence no finiteness, is needed.
-/
import Idealize.ShloMosaic.PureOps.Ideal
import Idealize.ShloMosaic.Lib.ValueIdx

noncomputable section

open scoped BigOperators

namespace Cert.Siren

open Idealize.ShloMosaic Idealize.ShloMosaic.ValueIdx

/-- The frequency 30 as both programs print it. -/
abbrev omega : EReal := Ideal.ofBits .f32 0x41F00000#32
/-- The weight 1 as both programs print it. -/
abbrev one : EReal := Ideal.ofBits .f32 0x3F800000#32
/-- The weight ½ as both programs print it. -/
abbrev half : EReal := Ideal.ofBits .f32 0x3F000000#32

/-- One sine layer: unit `o` is `sin (30 · (∑ₖ hₖ · w o k + b o))`. -/
def dense {K O : Type} [Fintype K] (h : K → EReal) (w : O → K → EReal) (b : O → EReal) : O → EReal :=
  fun o => Ideal.sin (omega * (∑ k, h k * w o k + b o))

/-- Scaling the layer's matrix by `c` is scaling its input by `c`: term by term `h · (w · c) = (c · h) · w`. -/
theorem dense_scaled {K O : Type} [Fintype K] (c : EReal) (h : K → EReal) (w : O → K → EReal) (b : O → EReal) :
    dense h (fun o k => w o k * c) b = dense (fun k => c * h k) w b := by
  funext o
  unfold dense
  congr 3
  refine Finset.sum_congr rfl fun k _ => ?_
  show h k * (w o k * c) = c * h k * w o k
  rw [mul_comm (w o k) c, ← mul_assoc, mul_comm (h k) c]

/-- One residual block: `c₂ · (h + s₂)`, `s₂` two sine layers deep over `c₁ · h`. -/
def block (c1 c2 : EReal) (h : Fin 128 → EReal) (w1 : Fin 128 → Fin 128 → EReal) (b1 : Fin 128 → EReal)
    (w2 : Fin 128 → Fin 128 → EReal) (b2 : Fin 128 → EReal) : Fin 128 → EReal :=
  fun o => c2 * (h o + dense (dense (fun k => c1 * h k) w1 b1) w2 b2 o)

/-- The same block with the first matrix scaled instead of its input. -/
theorem block_scaled (c1 c2 : EReal) (h : Fin 128 → EReal) (w1 : Fin 128 → Fin 128 → EReal) (b1 : Fin 128 → EReal)
    (w2 : Fin 128 → Fin 128 → EReal) (b2 : Fin 128 → EReal) :
    (fun o => c2 * (h o + dense (dense h (fun o k => w1 o k * c1) b1) w2 b2 o)) = block c1 c2 h w1 b1 w2 b2 := by
  unfold block
  rw [dense_scaled]

/-- The arguments' shapes. -/
abbrev SX : Shape := ⟨2, ![200000, 3]⟩
abbrev SW0 : Shape := ⟨2, ![128, 3]⟩
abbrev SB0 : Shape := ⟨1, ![128]⟩
abbrev SW : Shape := ⟨3, ![7, 128, 128]⟩
abbrev SB : Shape := ⟨2, ![7, 128]⟩
abbrev SWF : Shape := ⟨2, ![1, 128]⟩
abbrev SBF : Shape := ⟨1, ![1]⟩
abbrev SOut : Shape := ⟨2, ![200000, 1]⟩

/-- Matrix `i` of a stack of seven, by (output unit, input unit). -/
abbrev mat (w : SW.Idx → EReal) (i : Fin 7) : Fin 128 → Fin 128 → EReal := fun o k => w (ix3 i o k)
/-- Row `i` of a stack of seven bias vectors. -/
abbrev vec (b : SB.Idx → EReal) (i : Fin 7) : Fin 128 → EReal := fun o => b (ix2 i o)

/-- Residual block `i` over the argument arrays. -/
abbrev layer (rw1 : SW.Idx → EReal) (rb1 : SB.Idx → EReal) (rw2 : SW.Idx → EReal) (rb2 : SB.Idx → EReal)
    (i : Fin 7) (c1 c2 : EReal) (h : Fin 128 → EReal) : Fin 128 → EReal :=
  block c1 c2 h (mat rw1 i) (vec rb1 i) (mat rw2 i) (vec rb2 i)

/-- The hidden vector of input point `n` after the first sine layer. -/
abbrev hidden0 (x : SX.Idx → EReal) (w0 : SW0.Idx → EReal) (b0 : SB0.Idx → EReal) (n : Fin 200000) : Fin 128 → EReal :=
  dense (fun d : Fin 3 => x (ix2 n d)) (fun o d => w0 (ix2 o d)) (fun o => b0 (ix1 o))

/-- The hidden vector of input point `n` after all seven residual blocks. -/
def hidden7 (x : SX.Idx → EReal) (w0 : SW0.Idx → EReal) (b0 : SB0.Idx → EReal) (rw1 : SW.Idx → EReal)
    (rb1 : SB.Idx → EReal) (rw2 : SW.Idx → EReal) (rb2 : SB.Idx → EReal) (n : Fin 200000) : Fin 128 → EReal :=
  layer rw1 rb1 rw2 rb2 ⟨6, by decide⟩ half half
    (layer rw1 rb1 rw2 rb2 ⟨5, by decide⟩ half one
      (layer rw1 rb1 rw2 rb2 ⟨4, by decide⟩ half one
        (layer rw1 rb1 rw2 rb2 ⟨3, by decide⟩ half one
          (layer rw1 rb1 rw2 rb2 ⟨2, by decide⟩ half one
            (layer rw1 rb1 rw2 rb2 ⟨1, by decide⟩ half one
              (layer rw1 rb1 rw2 rb2 ⟨0, by decide⟩ one one (hidden0 x w0 b0 n)))))))

/-- THE RESULT: at input point `n`, the final linear read-out of the last hidden vector. -/
def net (x : SX.Idx → EReal) (w0 : SW0.Idx → EReal) (b0 : SB0.Idx → EReal) (rw1 : SW.Idx → EReal)
    (rb1 : SB.Idx → EReal) (rw2 : SW.Idx → EReal) (rb2 : SB.Idx → EReal) (wf : SWF.Idx → EReal)
    (bf : SBF.Idx → EReal) : SOut.Idx → EReal :=
  fun i => ∑ k : Fin 128, hidden7 x w0 b0 rw1 rb1 rw2 rb2 (i 0) k * wf (ix2 (0 : Fin 1) k) + bf (ix1 (0 : Fin 1))

end Cert.Siren

end
-- ==== Proof.LibDot2.lean ====
/-
  Two matrix products read at an index, at the ideal values, for any extents and any well-formedness witness of the
  dimension numbers: an accelerator matrix product into a zero accumulator of an [M,K] by a [K,N] array, and a host
  `dot_general` of an [M,K] by an [N,K] array contracted on both last axes, are both the plain sum over the contracted
  coordinate of the products of the entries.
-/
import Idealize.ShloMosaic.PureOps.Ideal.Laws
import Idealize.ShloMosaic.Lib.ValueIdx

noncomputable section

open scoped BigOperators

namespace Cert.LibDot2

open Idealize.ShloMosaic Idealize.ShloMosaic.ValueIdx

variable {M K N : Nat} {φ₁ φ₂ : FTy}

/-- An [M,K] by [K,N] matrix product accumulated into zeros: entry (a, b) is `∑ c, A (a, c) · B (c, b)`. -/
theorem matmul_zero_apply (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂)
    (a : Fin M) (b : Fin N) :
    matmul (⟨[1], [0], [0], [1], [], [], w⟩ : DotDims ⟨2, ![M, K]⟩ ⟨2, ![K, N]⟩ ⟨2, ![M, N]⟩) prec A B
        (constant ⟨2, ![M, N]⟩ .f32 0x00000000#32) (ix2 a b)
      = ∑ c : Fin K, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun c _ => ?_
  have c2 := contrEquiv1_symm_val (⟨[1], [0], [0], [1], [], [], w⟩ : DotDims ⟨2, ![M, K]⟩ ⟨2, ![K, N]⟩ ⟨2, ![M, N]⟩) K rfl rfl c
  have l2 : (⟨[1], [0], [0], [1], [], [], w⟩ : DotDims ⟨2, ![M, K]⟩ ⟨2, ![K, N]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![M, K]⟩ ⟨2, ![K, N]⟩ ⟨2, ![M, N]⟩).rhsIdx (ix2 a b)
      ((contrEquiv1 _ K rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A host `dot_general` of an [M,K] by an [N,K] array, both contracted on their last axis: entry (a, b) is
    `∑ c, A (a, c) · B (b, c)`. -/
theorem dotGeneral_nt_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (a : Fin M) (b : Fin N) :
    Host.dotGeneral (⟨[1], [1], [0], [0], [], [], w⟩ : DotDims ⟨2, ![M, K]⟩ ⟨2, ![N, K]⟩ ⟨2, ![M, N]⟩) prec A B (ix2 a b)
      = ∑ c : Fin K, A (ix2 a c) * B (ix2 b c) := by
  show FloatOps.dotGeneral _ prec _ A B (ix2 a b) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 a b)
      ((contrEquiv1 _ K rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 a b)
      ((contrEquiv1 _ K rfl rfl).symm c) = ix2 b c := by
    funext ax; apply Fin.ext
    match ax with
    | ⟨0, _⟩ => simp [DotDims.rhsIdx]; rfl
    | ⟨1, _⟩ => simp [DotDims.rhsIdx]; exact c2
  rw [l2, r2]

end Cert.LibDot2

end
-- ==== Proof.KernelBody.lean ====
/-
  The kernel body's arithmetic on one block of 4000 input points, read one input point (one row) at a time.

  The body is a chain of whole-block vector operations: a first sine layer on the [4000,3] block of inputs, seven
  residual blocks on the [4000,128] hidden block (each: two matrix products into zero accumulators, a bias row
  broadcast down the rows, a scaling by 30, a sine; then the skip connection and a scaling), and a read-out that
  multiplies by one weight row and sums along the hidden axis. Every one of these acts on each ROW of the hidden block
  separately, so row `p` of the result is the scalar network of Spec.lean applied to row `p` of the inputs
  (`first_row`, `sine_row`, `res_row`, `readout_apply`). The matrices arrive transposed — the body contracts the
  hidden row with the matrix's FIRST axis — which `matT` records.

  The printed payloads are compositions of the three vector functions `vfirst`, `vsine`, `vres` below
  (`pay2_eq` … `pay14_eq`, each by unfolding).
-/
import proofs.«166049_j30863634989122_2_alg».proof.Proof.Gen.KernelIdeal.Skeleton
import proofs.«166049_j30863634989122_2_alg».proof.Proof.Spec
import proofs.«166049_j30863634989122_2_alg».proof.Proof.LibDot2
import Idealize.ShloMosaic.Lib.ValueLayout
import Idealize.ShloMosaic.PureOps.Ideal.Laws

noncomputable section

open scoped BigOperators

namespace Cert.KernelIdeal.Body

open Cert.KernelIdeal Cert.KernelIdeal.Facts₀ Idealize.ShloMosaic Idealize.ShloMosaic.ValueIdx Cert.Siren
open Cert.KernelIdeal.Gen (k0_pay1 k0_pay2 k0_pay3 k0_pay4 k0_pay5 k0_pay6 k0_pay7 k0_pay8 k0_pay9 k0_pay10 k0_pay11 k0_pay12 k0_pay13 k0_pay14)

/-! ## The body's three vector functions -/

/-- The first sine layer on a block: `sin (30 · (x · w + b))`, `w` a [3,128] matrix, `b` a row broadcast down. -/
def vfirst (x : FVec Ideal S4000x3 .f32) (w : FVec Ideal S3x128 .f32) (b : FVec Ideal S1x128 .f32) : FVec Ideal S4000x128 .f32 :=
  sin (mulf (broadcast S4000x128 (Scalar.ofBits .f32 0x41F00000#32))
    (addf (matmul dot_S4000x3_S3x128_S4000x128_1_0_0_1_n_n (some .fp32) x w (constant S4000x128 .f32 0x00000000#32))
      (broadcastTo S4000x128 b broadcasts_S1x128_S4000x128)))

/-- A hidden sine layer on a block: `sin (30 · (h · w + b))`, `w` a [128,128] matrix. -/
def vsine (h : FVec Ideal S4000x128 .f32) (w : FVec Ideal S128x128 .f32) (b : FVec Ideal S1x128 .f32) : FVec Ideal S4000x128 .f32 :=
  sin (mulf (broadcast S4000x128 (Scalar.ofBits .f32 0x41F00000#32))
    (addf (matmul dot_S4000x128_S128x128_S4000x128_1_0_0_1_n_n (some .fp32) h w (constant S4000x128 .f32 0x00000000#32))
      (broadcastTo S4000x128 b broadcasts_S1x128_S4000x128)))

/-- A residual block on a block of rows: `c₂ · (h + sine (sine h))`, the weight `c₂` given by its float pattern. -/
def vres (c2 : BitVec 32) (h : FVec Ideal S4000x128 .f32) (w1 : FVec Ideal S128x128 .f32) (b1 : FVec Ideal S1x128 .f32)
    (w2 : FVec Ideal S128x128 .f32) (b2 : FVec Ideal S1x128 .f32) : FVec Ideal S4000x128 .f32 :=
  mulf (broadcast S4000x128 (Scalar.ofBits .f32 c2)) (addf h (vsine (vsine h w1 b1) w2 b2))

/-! ## The printed payloads are compositions of them -/

/-- A [1,128,128] load viewed as a matrix, a [1,1,128] load viewed as a row: the body's shape casts. -/
abbrev asMat (v : Vec Ideal S1x128x128 .f32) : FVec Ideal S128x128 .f32 := shapeCast S128x128 v shapeCasts_S1x128x128_S128x128
abbrev asRow (v : Vec Ideal S1x1x128 .f32) : FVec Ideal S1x128 .f32 := shapeCast S1x128 v shapeCasts_S1x1x128_S1x128

theorem pay2_eq (v0 : Vec Ideal S4000x3 .f32) (v1 : Vec Ideal S3x128 .f32) (v4 : Vec Ideal S1x128 .f32)
    (v11 : Vec Ideal S1x128x128 .f32) (v13 : Vec Ideal S1x1x128 .f32) (v15 : Vec Ideal S1x128x128 .f32) (v17 : Vec Ideal S1x1x128 .f32) :
    k0_pay2 v0 v1 v4 v11 v13 v15 v17
      = vres 0x3F800000#32 (vfirst v0 (shapeCast S3x128 v1 shapeCasts_S3x128_S3x128) (shapeCast S1x128 v4 shapeCasts_S1x128_S1x128))
          (asMat v11) (asRow v13) (asMat v15) (asRow v17) := rfl

theorem pay3_eq (h : FVec Ideal S4000x128 .f32) (v34 : Vec Ideal S1x128x128 .f32) (v36 : Vec Ideal S1x1x128 .f32)
    (v38 : Vec Ideal S1x128x128 .f32) (v40 : Vec Ideal S1x1x128 .f32) :
    k0_pay3 h v34 v36 v38 v40 = vres 0x3F800000#32 h (asMat v34) (asRow v36) (asMat v38) (asRow v40) := rfl

theorem pay4_eq (v : Vec Ideal S1x128x128 .f32) : k0_pay4 v = asMat v := rfl
theorem pay5_eq (v : Vec Ideal S1x1x128 .f32) : k0_pay5 v = asRow v := rfl
theorem pay6_eq (v : Vec Ideal S1x128x128 .f32) : k0_pay6 v = asMat v := rfl
theorem pay7_eq (v : Vec Ideal S1x1x128 .f32) : k0_pay7 v = asRow v := rfl

theorem pay8_eq (h : FVec Ideal S4000x128 .f32) (w1 : FVec Ideal S128x128 .f32) (b1 : FVec Ideal S1x128 .f32)
    (w2 : FVec Ideal S128x128 .f32) (b2 : FVec Ideal S1x128 .f32)
    (v80 : Vec Ideal S1x128x128 .f32) (v82 : Vec Ideal S1x1x128 .f32) (v84 : Vec Ideal S1x128x128 .f32) (v86 : Vec Ideal S1x1x128 .f32) :
    k0_pay8 h w1 b1 w2 b2 v80 v82 v84 v86
      = vres 0x3F800000#32 (vres 0x3F800000#32 h w1 b1 w2 b2) (asMat v80) (asRow v82) (asMat v84) (asRow v86) := rfl

theorem pay9_eq (h : FVec Ideal S4000x128 .f32) (v103 : Vec Ideal S1x128x128 .f32) (v105 : Vec Ideal S1x1x128 .f32)
    (v107 : Vec Ideal S1x128x128 .f32) (v109 : Vec Ideal S1x1x128 .f32) :
    k0_pay9 h v103 v105 v107 v109 = vres 0x3F800000#32 h (asMat v103) (asRow v105) (asMat v107) (asRow v109) := rfl

theorem pay10_eq (v : Vec Ideal S1x128x128 .f32) : k0_pay10 v = asMat v := rfl
theorem pay11_eq (v : Vec Ideal S1x1x128 .f32) : k0_pay11 v = asRow v := rfl
theorem pay12_eq (v : Vec Ideal S1x128x128 .f32) : k0_pay12 v = asMat v := rfl
theorem pay13_eq (v : Vec Ideal S1x1x128 .f32) : k0_pay13 v = asRow v := rfl

theorem pay14_eq (h : FVec Ideal S4000x128 .f32) (w1 : FVec Ideal S128x128 .f32) (b1 : FVec Ideal S1x128 .f32)
    (w2 : FVec Ideal S128x128 .f32) (b2 : FVec Ideal S1x128 .f32)
    (v149 : Vec Ideal S1x128x128 .f32) (v151 : Vec Ideal S1x1x128 .f32) (v153 : Vec Ideal S1x128x128 .f32) (v155 : Vec Ideal S1x1x128 .f32) :
    k0_pay14 h w1 b1 w2 b2 v149 v151 v153 v155
      = vres 0x3F000000#32 (vres 0x3F800000#32 h w1 b1 w2 b2) (asMat v149) (asRow v151) (asMat v153) (asRow v155) := rfl

/-! ## One row at a time -/

/-- Row `p` of a hidden block. -/
abbrev row (h : FVec Ideal S4000x128 .f32) (p : Fin 4000) : Fin 128 → EReal := fun k => h (ix2 p k)
/-- A matrix the body contracts on its first axis, by (output unit, input unit). -/
abbrev matT {K : Nat} (w : FVec Ideal ⟨2, ![K, 128]⟩ .f32) : Fin 128 → Fin K → EReal := fun o k => w (ix2 k o)
/-- A bias row. -/
abbrev rowv (b : FVec Ideal S1x128 .f32) : Fin 128 → EReal := fun o => b (ix2 (0 : Fin 1) o)

/-- Row `p` of the first sine layer is the scalar layer of row `p` of the inputs. -/
theorem first_row (x : FVec Ideal S4000x3 .f32) (w : FVec Ideal S3x128 .f32) (b : FVec Ideal S1x128 .f32) (p : Fin 4000) :
    row (vfirst x w b) p = dense (fun d : Fin 3 => x (ix2 p d)) (matT w) (rowv b) := by
  funext o
  have e : matmul dot_S4000x3_S3x128_S4000x128_1_0_0_1_n_n (some .fp32) x w (constant S4000x128 .f32 0x00000000#32) (ix2 p o)
      = ∑ c : Fin 3, x (ix2 p c) * w (ix2 c o) :=
    LibDot2.matmul_zero_apply dot_S4000x3_S3x128_S4000x128_1_0_0_1_n_n_wf (some .fp32) x w p o
  show Ideal.sin (Ideal.ofBits .f32 0x41F00000#32
    * (matmul dot_S4000x3_S3x128_S4000x128_1_0_0_1_n_n (some .fp32) x w (constant S4000x128 .f32 0x00000000#32) (ix2 p o)
      + broadcastTo S4000x128 b broadcasts_S1x128_S4000x128 (ix2 p o))) = _
  rw [e, broadcastTo_1b_ab_apply]
  rfl

/-- Row `p` of a hidden sine layer is the scalar layer of row `p`. -/
theorem sine_row (h : FVec Ideal S4000x128 .f32) (w : FVec Ideal S128x128 .f32) (b : FVec Ideal S1x128 .f32) (p : Fin 4000) :
    row (vsine h w b) p = dense (row h p) (matT w) (rowv b) := by
  funext o
  have e : matmul dot_S4000x128_S128x128_S4000x128_1_0_0_1_n_n (some .fp32) h w (constant S4000x128 .f32 0x00000000#32) (ix2 p o)
      = ∑ c : Fin 128, h (ix2 p c) * w (ix2 c o) :=
    LibDot2.matmul_zero_apply dot_S4000x128_S128x128_S4000x128_1_0_0_1_n_n_wf (some .fp32) h w p o
  show Ideal.sin (Ideal.ofBits .f32 0x41F00000#32
    * (matmul dot_S4000x128_S128x128_S4000x128_1_0_0_1_n_n (some .fp32) h w (constant S4000x128 .f32 0x00000000#32) (ix2 p o)
      + broadcastTo S4000x128 b broadcasts_S1x128_S4000x128 (ix2 p o))) = _
  rw [e, broadcastTo_1b_ab_apply]
  rfl

/-- Row `p` of a residual block: the skip connection plus two scalar sine layers, scaled. -/
theorem res_row (c2 : BitVec 32) (h : FVec Ideal S4000x128 .f32) (w1 : FVec Ideal S128x128 .f32) (b1 : FVec Ideal S1x128 .f32)
    (w2 : FVec Ideal S128x128 .f32) (b2 : FVec Ideal S1x128 .f32) (p : Fin 4000) :
    row (vres c2 h w1 b1 w2 b2) p
      = fun o => Ideal.ofBits .f32 c2 * (row h p o + dense (dense (row h p) (matT w1) (rowv b1)) (matT w2) (rowv b2) o) := by
  funext o
  show Ideal.ofBits .f32 c2 * (h (ix2 p o) + row (vsine (vsine h w1 b1) w2 b2) p o) = _
  rw [sine_row, sine_row]

/-! ## The read-out -/

/-- The read-out at input point `p`: the hidden row times the weight row, summed, plus the one bias. -/
theorem readout_apply (h : FVec Ideal S4000x128 .f32) (wf : Vec Ideal S1x128 .f32) (bf : Vec Ideal S1x1 .f32) (p : Fin 4000) (q : Fin 1) :
    k0_pay1 h wf bf (ix2 p q) = ∑ k : Fin 128, h (ix2 p k) * wf (ix2 (0 : Fin 1) k) + bf (ix2 (0 : Fin 1) (0 : Fin 1)) := by
  have hq : q.val = 0 := by omega
  show (shapeCast S4000x1 (multiReduction .add [1] S4000 (mulf h (broadcastTo S4000x128 wf broadcasts_S1x128_S4000x128)) 0x00000000#32
        reduces_S4000x128_S4000 (.inl rfl) rfl) shapeCasts_S4000_S4000x1) (ix2 p q)
      + (broadcastTo S4000x1 (shapeCast S1x1 bf shapeCasts_S1x1_S1x1) broadcasts_S1x1_S4000x1) (ix2 p q) = _
  have e1 : (shapeCast S4000x1 (multiReduction .add [1] S4000 (mulf h (broadcastTo S4000x128 wf broadcasts_S1x128_S4000x128)) 0x00000000#32
        reduces_S4000x128_S4000 (.inl rfl) rfl) shapeCasts_S4000_S4000x1) (ix2 p q)
      = ∑ k : Fin 128, h (ix2 p k) * wf (ix2 (0 : Fin 1) k) := by
    refine (shapeCast_apply _ _ (ix2 p q) (ix1 p) (by
      rw [Shape.rowMajor_val_one, Shape.rowMajor_val_two]; show p.val = p.val * 1 + q.val; omega)).trans ?_
    refine (Ideal.multiReduction_add_single _ 0x00000000#32 reduces_S4000x128_S4000 (.inl rfl) rfl (ix1 p)).trans ?_
    show ∑ k : Fin 128, (mulf h (broadcastTo S4000x128 wf broadcasts_S1x128_S4000x128)) (reduces_S4000x128_S4000.lift (ix1 p) k)
      = ∑ k : Fin 128, h (ix2 p k) * wf (ix2 (0 : Fin 1) k)
    refine Finset.sum_congr rfl fun k _ => ?_
    have ek : reduces_S4000x128_S4000.lift (ix1 p) k = ix2 p k := by
      funext a; apply Fin.ext
      match a with
      | ⟨0, _⟩ => rfl
      | ⟨1, _⟩ => rfl
    rw [ek]
    show h (ix2 p k) * broadcastTo S4000x128 wf broadcasts_S1x128_S4000x128 (ix2 p k) = _
    rw [broadcastTo_1b_ab_apply]
  have e2 : (broadcastTo S4000x1 (shapeCast S1x1 bf shapeCasts_S1x1_S1x1) broadcasts_S1x1_S4000x1) (ix2 p q)
      = bf (ix2 (0 : Fin 1) (0 : Fin 1)) := by
    rw [shapeCast_self]
    exact broadcastTo_apply bf broadcasts_S1x1_S4000x1 (ix2 p q) (ix2 (0 : Fin 1) (0 : Fin 1)) fun a => by
      match a with
      | ⟨0, _⟩ => rfl
      | ⟨1, _⟩ => rfl
  rw [e1, e2]

end Cert.KernelIdeal.Body

end
-- ==== Proof.KernelWindows.lean ====
/-
  What the region finds in each window's array: the host operations before the launch, read at an index.

  Before the launch the program lays the arguments out for the body: the first matrix transposed to [3,128]; the first
  bias as a row [1,128]; each stack of seven matrices transposed in its last two axes — the FIRST stack also scaled,
  matrix `i` by `wgt i`, which is ½ where `i > 0` and 1 at `i = 0` (a select on an integer comparison of an iota) —;
  each stack of bias vectors as [7,1,128]; the read-out bias as [1,1]. Here each of these arrays is read at an index as
  an entry of an argument (`first_matrix`, `first_bias`, `scaled_stack`, `bias_stack1`, `plain_stack`, `bias_stack2`,
  `readout_bias`), and the weights are evaluated at the seven layer numbers (`wgt_zero`, `wgt_succ`).
-/
import proofs.«166049_j30863634989122_2_alg».proof.Proof.Gen.KernelIdeal.Frame
import Idealize.ShloMosaic.Lib.StableHlo.Run
import Idealize.ShloMosaic.Lib.ValueLayout

noncomputable section

namespace Cert.KernelIdeal.Windows

open Cert.KernelIdeal Cert.KernelIdeal.Facts₀ Idealize.ShloMosaic Idealize.ShloMosaic.TcCoe Idealize.SL.Sem Idealize.ShloMosaic.ValueIdx
open Cert.KernelIdeal.Gen (V hostOps0 hostOps0_1 hostOps0_2)

variable (m : (ℓ : Loc nD τ sig) → Buf (Elt Ideal) ℓ)

/-! ## The argument arrays as launched, typed as arrays of extended reals -/

abbrev argX (c : Dev nD) : FVec Ideal S200000x3 .f32 := m ((c : Thread nD τ).loc main_arg0)
abbrev argW0 (c : Dev nD) : FVec Ideal S128x3 .f32 := m ((c : Thread nD τ).loc main_arg1)
abbrev argB0 (c : Dev nD) : FVec Ideal S128 .f32 := m ((c : Thread nD τ).loc main_arg2)
abbrev argW1 (c : Dev nD) : FVec Ideal S7x128x128 .f32 := m ((c : Thread nD τ).loc main_arg3)
abbrev argB1 (c : Dev nD) : FVec Ideal S7x128 .f32 := m ((c : Thread nD τ).loc main_arg4)
abbrev argW2 (c : Dev nD) : FVec Ideal S7x128x128 .f32 := m ((c : Thread nD τ).loc main_arg5)
abbrev argB2 (c : Dev nD) : FVec Ideal S7x128 .f32 := m ((c : Thread nD τ).loc main_arg6)
abbrev argWF (c : Dev nD) : FVec Ideal S1x128 .f32 := m ((c : Thread nD τ).loc main_arg7)
abbrev argBF (c : Dev nD) : FVec Ideal S1 .f32 := m ((c : Thread nD τ).loc main_arg8)

/-! ## The scaling weights -/

/-- The weight of each of the seven first matrices: ½ where the layer number is positive, else 1. -/
def wgt : FVec Ideal S7 .f32 :=
  select (cmpi .sgt (iotaInDim S7 32 0) (broadcastInDim S7 ![] bcast_S_S7 (constantI S_ 32 0#32)))
    (broadcastInDim S7 ![] bcast_S_S7 (constant S_ .f32 0x3F000000#32))
    (broadcastInDim S7 ![] bcast_S_S7 (constant S_ .f32 0x3F800000#32))

theorem wgt_apply (i : Fin 7) :
    wgt (ix1 i) = Scalar.select (IntOp.cmpi .sgt (BitVec.ofNat 32 i.val) 0#32)
      (Ideal.ofBits .f32 0x3F000000#32) (Ideal.ofBits .f32 0x3F800000#32) := rfl

/-- Layer 0 is not scaled (weight 1). -/
theorem wgt_zero : wgt (ix1 (⟨0, by decide⟩ : Fin 7)) = Ideal.ofBits .f32 0x3F800000#32 := by
  rw [wgt_apply, show IntOp.cmpi .sgt (BitVec.ofNat 32 (⟨0, by decide⟩ : Fin 7).val) 0#32 = 0#1 from by decide, select_zero]

/-- Layers 1 … 6 are scaled by ½. -/
theorem wgt_succ (i : Fin 7) (hi : 0 < i.val) : wgt (ix1 i) = Ideal.ofBits .f32 0x3F000000#32 := by
  rw [wgt_apply, show IntOp.cmpi .sgt (BitVec.ofNat 32 i.val) 0#32 = 1#1 from by
    revert hi; revert i; decide, select_one]

/-! ## The arrays the host operations leave -/

theorem v0_eq (c : Dev nD) : (V m c main_v0 : S3x128.Idx → EReal)
    = transpose S3x128 [1, 0] (m ((c : Thread nD τ).loc main_arg1)) transposes_S128x3_S3x128_1_0 := by
  dsimp only [V]
  simp only [hostOps0, hostOps0_1, hostOps0_2, List.flatten_cons, List.flatten_nil, List.append_nil, List.cons_append, List.nil_append]
  after_results

theorem v1_eq (c : Dev nD) : (V m c main_v1 : S1x128.Idx → EReal)
    = shapeCast S1x128 (m ((c : Thread nD τ).loc main_arg2)) shapeCasts_S128_S1x128 := by
  dsimp only [V]
  simp only [hostOps0, hostOps0_1, hostOps0_2, List.flatten_cons, List.flatten_nil, List.append_nil, List.cons_append, List.nil_append]
  after_results
  rfl

theorem v10_eq (c : Dev nD) : (V m c main_v10 : S7x128x128.Idx → EReal)
    = transpose S7x128x128 [0, 2, 1]
        (mulf (m ((c : Thread nD τ).loc main_arg3))
          (broadcastInDim S7x128x128 ![0, 1, 2] bcast_S7x1x1_S7x128x128_0_1_2 (broadcastInDim S7x1x1 ![0] bcast_S7_S7x1x1_0 wgt)))
        transposes_S7x128x128_S7x128x128_0_2_1 := by
  dsimp only [V]
  simp only [hostOps0, hostOps0_1, hostOps0_2, List.flatten_cons, List.flatten_nil, List.append_nil, List.cons_append, List.nil_append]
  after_results
  rfl

theorem v11_eq (c : Dev nD) : (V m c main_v11 : S7x1x128.Idx → EReal)
    = shapeCast S7x1x128 (m ((c : Thread nD τ).loc main_arg4)) shapeCasts_S7x128_S7x1x128 := by
  dsimp only [V]
  simp only [hostOps0, hostOps0_1, hostOps0_2, List.flatten_cons, List.flatten_nil, List.append_nil, List.cons_append, List.nil_append]
  after_results
  rfl

theorem v12_eq (c : Dev nD) : (V m c main_v12 : S7x128x128.Idx → EReal)
    = transpose S7x128x128 [0, 2, 1] (m ((c : Thread nD τ).loc main_arg5)) transposes_S7x128x128_S7x128x128_0_2_1 := by
  dsimp only [V]
  simp only [hostOps0, hostOps0_1, hostOps0_2, List.flatten_cons, List.flatten_nil, List.append_nil, List.cons_append, List.nil_append]
  after_results

theorem v13_eq (c : Dev nD) : (V m c main_v13 : S7x1x128.Idx → EReal)
    = shapeCast S7x1x128 (m ((c : Thread nD τ).loc main_arg6)) shapeCasts_S7x128_S7x1x128 := by
  dsimp only [V]
  simp only [hostOps0, hostOps0_1, hostOps0_2, List.flatten_cons, List.flatten_nil, List.append_nil, List.cons_append, List.nil_append]
  after_results
  rfl

theorem v14_eq (c : Dev nD) : (V m c main_v14 : S1x1.Idx → EReal)
    = shapeCast S1x1 (m ((c : Thread nD τ).loc main_arg8)) shapeCasts_S1_S1x1 := by
  dsimp only [V]
  simp only [hostOps0, hostOps0_1, hostOps0_2, List.flatten_cons, List.flatten_nil, List.append_nil, List.cons_append, List.nil_append]
  after_results
  rfl

/-! ## Read at an index -/

/-- The first matrix as the body sees it, [3,128]: entry (d, o) is the argument's (o, d). -/
theorem first_matrix (c : Dev nD) (d : Fin 3) (o : Fin 128) :
    (V m c main_v0 : S3x128.Idx → EReal) (ix2 d o) = argW0 m c (ix2 o d) := by
  rw [v0_eq]; exact transpose_ix2_apply _ _ d o

/-- The first bias as a row. -/
theorem first_bias (c : Dev nD) (o : Fin 128) :
    (V m c main_v1 : S1x128.Idx → EReal) (ix2 (0 : Fin 1) o) = argB0 m c (ix1 o) := by
  rw [v1_eq]; exact shapeCast_a_1a_apply _ _ (0 : Fin 1) o

/-- The first stack of matrices as the body sees it: matrix `i` transposed and scaled by its weight. -/
theorem scaled_stack (c : Dev nD) (i : Fin 7) (k o : Fin 128) :
    (V m c main_v10 : S7x128x128.Idx → EReal) (ix3 i k o)
      = argW1 m c (ix3 i o k) * wgt (ix1 i) := by
  rw [v10_eq]
  refine (transpose_ix3_021_apply _ _ i k o).trans ?_
  show argW1 m c (ix3 i o k)
    * broadcastInDim S7x128x128 ![0, 1, 2] bcast_S7x1x1_S7x128x128_0_1_2 (broadcastInDim S7x1x1 ![0] bcast_S7_S7x1x1_0 wgt) (ix3 i o k) = _
  -- the two broadcasts read the weight vector at the layer number
  exact congrArg (argW1 m c (ix3 i o k) * ·)
    ((broadcastInDim_apply _ _ _ (ix3 i o k) (ix3 i (0 : Fin 1) (0 : Fin 1)) fun a => by
        match a with
        | ⟨0, _⟩ => rfl
        | ⟨1, _⟩ => rfl
        | ⟨2, _⟩ => rfl).trans
      (broadcastInDim_apply _ _ _ (ix3 i (0 : Fin 1) (0 : Fin 1)) (ix1 i) fun a => by
        match a with
        | ⟨0, _⟩ => rfl))

/-- The second stack of matrices as the body sees it: matrix `i` transposed. -/
theorem plain_stack (c : Dev nD) (i : Fin 7) (k o : Fin 128) :
    (V m c main_v12 : S7x128x128.Idx → EReal) (ix3 i k o)
      = argW2 m c (ix3 i o k) := by
  rw [v12_eq]; exact transpose_ix3_021_apply _ _ i k o

/-- A [7,128] array viewed [7,1,128] reads (i, 0, o) at (i, o). -/
theorem stack_row (x : S7x128.Idx → EReal) (i : Fin 7) (o : Fin 128) :
    shapeCast S7x1x128 x shapeCasts_S7x128_S7x1x128 (ix3 i (0 : Fin 1) o) = x (ix2 i o) :=
  shapeCast_apply x _ _ _ (by
    rw [Shape.rowMajor_val_two, Shape.rowMajor_val_three]
    show i.val * 128 + o.val = (i.val * 1 + 0) * 128 + o.val
    omega)

/-- The first stack of bias vectors as rows. -/
theorem bias_stack1 (c : Dev nD) (i : Fin 7) (o : Fin 128) :
    (V m c main_v11 : S7x1x128.Idx → EReal) (ix3 i (0 : Fin 1) o) = argB1 m c (ix2 i o) := by
  rw [v11_eq]; exact stack_row _ i o

/-- The second stack of bias vectors as rows. -/
theorem bias_stack2 (c : Dev nD) (i : Fin 7) (o : Fin 128) :
    (V m c main_v13 : S7x1x128.Idx → EReal) (ix3 i (0 : Fin 1) o) = argB2 m c (ix2 i o) := by
  rw [v13_eq]; exact stack_row _ i o

/-- The read-out bias as a [1,1] array. -/
theorem readout_bias (c : Dev nD) :
    (V m c main_v14 : S1x1.Idx → EReal) (ix2 (0 : Fin 1) (0 : Fin 1)) = argBF m c (ix1 (0 : Fin 1)) := by
  rw [v14_eq]; exact shapeCast_a_1a_apply _ _ (0 : Fin 1) (0 : Fin 1)

end Cert.KernelIdeal.Windows

end
-- ==== Proof.KernelValue.lean ====
/-
  The kernel's result array: every block the grid writes back is a block of ONE function of the arguments.

  The grid has 50 points; point `t` stages rows `4000·t … 4000·t + 3999` of the inputs (window 0) and of the result
  (window 9), and the whole of every weight array (windows 1 … 8: their block index is 0 at every point). What point
  `t` writes back, at row `p` of its block, is the kernel body's arithmetic (KernelBody.lean) on row `p` of the
  input block — that is, on input point `n = 4000·t + p` — over the weight arrays as the host operations left them
  (KernelWindows.lean): the network of Spec.lean at `n`, once the scaling of the first matrices is moved onto the
  hidden vector (`Siren.block_scaled`) and the weights are evaluated (`wgt_zero`, `wgt_succ`). The 50 blocks tile the
  result array, so after the run it holds the network at every input point (`final`, `run`).
-/
import proofs.«166049_j30863634989122_2_alg».proof.Proof.Gen.KernelIdeal.Frame
import proofs.«166049_j30863634989122_2_alg».proof.Proof.KernelBody
import proofs.«166049_j30863634989122_2_alg».proof.Proof.KernelWindows
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx Cert.Siren Cert.KernelIdeal.Body Cert.KernelIdeal.Windows
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

/-! ## Loads through the body's rectangles -/

/-- Matrix `i` of a staged stack, loaded as a [1,128,128] vector. -/
theorem ld_mat (x : Vec Ideal S7x128x128 .f32) (i : Nat) (hi : i < 7) (inb : ∀ a, (![i, 0, 0] : Fin 3 → Nat) a + S1x128x128.size a ≤ S7x128x128.size a)
    (k o : Fin 128) :
    View.ld x (Rect.unit (s := S7x128x128) ![i, 0, 0] S1x128x128.size inb) (ix3 (0 : Fin 1) k o) = x (ix3 (⟨i, hi⟩ : Fin 7) k o) := by
  show x ((Rect.unit (s := S7x128x128) ![i, 0, 0] S1x128x128.size inb).emb (ix3 (0 : Fin 1) k o)) = _
  refine congrArg x (funext fun a => Fin.ext ?_)
  match a with
  | ⟨0, _⟩ => show i + 1 * 0 = i; omega
  | ⟨1, _⟩ => show 0 + 1 * k.val = k.val; omega
  | ⟨2, _⟩ => show 0 + 1 * o.val = o.val; omega

/-- Bias row `i` of a staged stack, loaded as a [1,1,128] vector. -/
theorem ld_row (x : Vec Ideal S7x1x128 .f32) (i : Nat) (hi : i < 7) (inb : ∀ a, (![i, 0, 0] : Fin 3 → Nat) a + S1x1x128.size a ≤ S7x1x128.size a)
    (o : Fin 128) :
    View.ld x (Rect.unit (s := S7x1x128) ![i, 0, 0] S1x1x128.size inb) (ix3 (0 : Fin 1) (0 : Fin 1) o) = x (ix3 (⟨i, hi⟩ : Fin 7) (0 : Fin 1) o) := by
  show x ((Rect.unit (s := S7x1x128) ![i, 0, 0] S1x1x128.size inb).emb (ix3 (0 : Fin 1) (0 : Fin 1) o)) = _
  refine congrArg x (funext fun a => Fin.ext ?_)
  match a with
  | ⟨0, _⟩ => show i + 1 * 0 = i; omega
  | ⟨1, _⟩ => show 0 + 1 * 0 = 0; omega
  | ⟨2, _⟩ => show 0 + 1 * o.val = o.val; omega

/-- A [1,1,128] load viewed as a row reads (0, o) at (0, 0, o). -/
theorem asRow_apply (v : Vec Ideal S1x1x128 .f32) (o : Fin 128) : asRow v (ix2 (0 : Fin 1) o) = v (ix3 (0 : Fin 1) (0 : Fin 1) o) :=
  shapeCast_1ab_ab_apply _ _ (0 : Fin 1) o

/-! ## One residual block of the body, over the argument arrays -/

/-- Row `p` of residual block `i` of the body, its four operands loaded from staged stacks that hold — transposed, the
    first one scaled by `wgt i` — the argument stacks: the scalar residual block `i` with first weight `wgt i`. -/
theorem layer_row (c2 : BitVec 32) (i : Nat) (hi : i < 7)
    (inb3 : ∀ a, (![i, 0, 0] : Fin 3 → Nat) a + S1x128x128.size a ≤ S7x128x128.size a)
    (inb4 : ∀ a, (![i, 0, 0] : Fin 3 → Nat) a + S1x1x128.size a ≤ S7x1x128.size a)
    (h : FVec Ideal S4000x128 .f32) (x3 : Vec Ideal S7x128x128 .f32) (x4 : Vec Ideal S7x1x128 .f32)
    (x5 : Vec Ideal S7x128x128 .f32) (x6 : Vec Ideal S7x1x128 .f32)
    (W1 : SW.Idx → EReal) (B1 : SB.Idx → EReal) (W2 : SW.Idx → EReal) (B2 : SB.Idx → EReal)
    (h3 : ∀ (i : Fin 7) (k o : Fin 128), x3 (ix3 i k o) = W1 (ix3 i o k) * wgt (ix1 i))
    (h4 : ∀ (i : Fin 7) (o : Fin 128), x4 (ix3 i (0 : Fin 1) o) = B1 (ix2 i o))
    (h5 : ∀ (i : Fin 7) (k o : Fin 128), x5 (ix3 i k o) = W2 (ix3 i o k))
    (h6 : ∀ (i : Fin 7) (o : Fin 128), x6 (ix3 i (0 : Fin 1) o) = B2 (ix2 i o))
    (p : Fin 4000) :
    row (vres c2 h (asMat (View.ld x3 (Rect.unit (s := S7x128x128) ![i, 0, 0] S1x128x128.size inb3)))
        (asRow (View.ld x4 (Rect.unit (s := S7x1x128) ![i, 0, 0] S1x1x128.size inb4)))
        (asMat (View.ld x5 (Rect.unit (s := S7x128x128) ![i, 0, 0] S1x128x128.size inb3)))
        (asRow (View.ld x6 (Rect.unit (s := S7x1x128) ![i, 0, 0] S1x1x128.size inb4)))) p
      = layer W1 B1 W2 B2 (⟨i, hi⟩ : Fin 7) (wgt (ix1 (⟨i, hi⟩ : Fin 7))) (Ideal.ofBits .f32 c2) (row h p) := by
  rw [res_row]
  have m1 : matT (asMat (View.ld x3 (Rect.unit (s := S7x128x128) ![i, 0, 0] S1x128x128.size inb3)))
      = fun o k => mat W1 (⟨i, hi⟩ : Fin 7) o k * wgt (ix1 (⟨i, hi⟩ : Fin 7)) := by
    funext o k
    exact (shapeCast_1ab_ab_apply _ _ k o).trans ((ld_mat x3 i hi inb3 k o).trans (h3 _ k o))
  have m2 : rowv (asRow (View.ld x4 (Rect.unit (s := S7x1x128) ![i, 0, 0] S1x1x128.size inb4))) = vec B1 (⟨i, hi⟩ : Fin 7) := by
    funext o
    exact (asRow_apply _ o).trans ((ld_row x4 i hi inb4 o).trans (h4 _ o))
  have m3 : matT (asMat (View.ld x5 (Rect.unit (s := S7x128x128) ![i, 0, 0] S1x128x128.size inb3))) = mat W2 (⟨i, hi⟩ : Fin 7) := by
    funext o k
    exact (shapeCast_1ab_ab_apply _ _ k o).trans ((ld_mat x5 i hi inb3 k o).trans (h5 _ k o))
  have m4 : rowv (asRow (View.ld x6 (Rect.unit (s := S7x1x128) ![i, 0, 0] S1x1x128.size inb4))) = vec B2 (⟨i, hi⟩ : Fin 7) := by
    funext o
    exact (asRow_apply _ o).trans ((ld_row x6 i hi inb4 o).trans (h6 _ o))
  rw [m1, m2, m3, m4]
  exact block_scaled _ _ _ _ _ _ _

/-! ## The body at one input point, over the argument arrays -/

/-- What the body leaves in the result block at row `p`, when the nine staged blocks hold (as the hypotheses say, entry by
    entry) row `n` of the inputs at their row `p` and the weight arrays laid out as the host operations leave them: the
    network at input point `n`. -/
theorem body_apply (x0 : Vec Ideal S4000x3 .f32) (x1 : Vec Ideal S3x128 .f32) (x2 : Vec Ideal S1x128 .f32)
    (x3 : Vec Ideal S7x128x128 .f32) (x4 : Vec Ideal S7x1x128 .f32) (x5 : Vec Ideal S7x128x128 .f32) (x6 : Vec Ideal S7x1x128 .f32)
    (x7 : Vec Ideal S1x128 .f32) (x8 : Vec Ideal S1x1 .f32)
    (X : SX.Idx → EReal) (W0 : SW0.Idx → EReal) (B0 : SB0.Idx → EReal) (W1 : SW.Idx → EReal) (B1 : SB.Idx → EReal)
    (W2 : SW.Idx → EReal) (B2 : SB.Idx → EReal) (WF : SWF.Idx → EReal) (BF : SBF.Idx → EReal)
    (n : Fin 200000) (p : Fin 4000) (q : Fin 1)
    (h0 : ∀ d : Fin 3, x0 (ix2 p d) = X (ix2 n d))
    (h1 : ∀ (d : Fin 3) (o : Fin 128), x1 (ix2 d o) = W0 (ix2 o d))
    (h2 : ∀ o : Fin 128, x2 (ix2 (0 : Fin 1) o) = B0 (ix1 o))
    (h3 : ∀ (i : Fin 7) (k o : Fin 128), x3 (ix3 i k o) = W1 (ix3 i o k) * wgt (ix1 i))
    (h4 : ∀ (i : Fin 7) (o : Fin 128), x4 (ix3 i (0 : Fin 1) o) = B1 (ix2 i o))
    (h5 : ∀ (i : Fin 7) (k o : Fin 128), x5 (ix3 i k o) = W2 (ix3 i o k))
    (h6 : ∀ (i : Fin 7) (o : Fin 128), x6 (ix3 i (0 : Fin 1) o) = B2 (ix2 i o))
    (h7 : ∀ k : Fin 128, x7 (ix2 (0 : Fin 1) k) = WF (ix2 (0 : Fin 1) k))
    (h8 : x8 (ix2 (0 : Fin 1) (0 : Fin 1)) = BF (ix1 (0 : Fin 1))) :
    out0_9 x0 x1 x2 x3 x4 x5 x6 x7 x8 (ix2 p q) = net X W0 B0 W1 B1 W2 B2 WF BF (ix2 n q) := by
  unfold out0_9
  rw [View.canon_unit_zero hz2, readout_apply]
  simp only [View.ld_unit_zero (S := S1x128) hz2, View.ld_unit_zero (S := S4000x3) hz2, View.ld_unit_zero (S := S3x128) hz2]
  rw [pay14_eq, pay10_eq, pay11_eq, pay12_eq, pay13_eq, pay9_eq, pay8_eq, pay4_eq, pay5_eq, pay6_eq, pay7_eq, pay3_eq, pay2_eq]
  have l7 : ∀ k : Fin 128, View.ld x7 r0_2 (ix2 (0 : Fin 1) k) = WF (ix2 (0 : Fin 1) k) := fun k =>
    (congrFun (View.ld_unit_zero (S := S1x128) hz2 _ x7) _).trans (h7 k)
  have l8 : View.ld x8 r0_17 (ix2 (0 : Fin 1) (0 : Fin 1)) = BF (ix1 (0 : Fin 1)) :=
    (congrFun (View.ld_unit_zero (S := S1x1) hz2 _ x8) _).trans h8
  unfold net
  rw [l8]
  refine congrArg (· + BF (ix1 (0 : Fin 1))) (Finset.sum_congr rfl fun k _ => ?_)
  rw [l7]
  refine congrArg (· * WF (ix2 (0 : Fin 1) k)) ?_
  show row _ p k = hidden7 X W0 B0 W1 B1 W2 B2 n k
  refine congrFun ?_ k
  unfold hidden7
  rw [layer_row 0x3F000000#32 6 (by decide) _ _ _ x3 x4 x5 x6 W1 B1 W2 B2 h3 h4 h5 h6 p,
    layer_row 0x3F800000#32 5 (by decide) _ _ _ x3 x4 x5 x6 W1 B1 W2 B2 h3 h4 h5 h6 p,
    layer_row 0x3F800000#32 4 (by decide) _ _ _ x3 x4 x5 x6 W1 B1 W2 B2 h3 h4 h5 h6 p,
    layer_row 0x3F800000#32 3 (by decide) _ _ _ x3 x4 x5 x6 W1 B1 W2 B2 h3 h4 h5 h6 p,
    layer_row 0x3F800000#32 2 (by decide) _ _ _ x3 x4 x5 x6 W1 B1 W2 B2 h3 h4 h5 h6 p,
    layer_row 0x3F800000#32 1 (by decide) _ _ _ x3 x4 x5 x6 W1 B1 W2 B2 h3 h4 h5 h6 p,
    layer_row 0x3F800000#32 0 (by decide) _ _ _ x3 x4 x5 x6 W1 B1 W2 B2 h3 h4 h5 h6 p,
    first_row, shapeCast_self, shapeCast_self]
  have f0 : (fun d : Fin 3 => x0 (ix2 p d)) = fun d => X (ix2 n d) := funext h0
  have f1 : matT (K := 3) x1 = fun o d => W0 (ix2 o d) := funext fun o => funext fun d => h1 d o
  have f2 : rowv x2 = fun o => B0 (ix1 o) := funext h2
  rw [f0, f1, f2, wgt_zero, wgt_succ ⟨1, by decide⟩ (by decide), wgt_succ ⟨2, by decide⟩ (by decide),
    wgt_succ ⟨3, by decide⟩ (by decide), wgt_succ ⟨4, by decide⟩ (by decide), wgt_succ ⟨5, by decide⟩ (by decide),
    wgt_succ ⟨6, by decide⟩ (by decide)]

/-! ## The staged blocks, read off the arrays the region finds -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx3 : ∀ t : Fin cfg0.N, win0_3.index t (0 : Fin 3) = 0 ∧ win0_3.index t (1 : Fin 3) = 0 ∧ win0_3.index t (2 : Fin 3) = 0 :=
  (by decide +kernel : ∀ t : Fin grid0.N, win0_3.index t (0 : Fin 3) = 0 ∧ win0_3.index t (1 : Fin 3) = 0 ∧ win0_3.index t (2 : Fin 3) = 0)
theorem idx4 : ∀ t : Fin cfg0.N, win0_4.index t (0 : Fin 3) = 0 ∧ win0_4.index t (1 : Fin 3) = 0 ∧ win0_4.index t (2 : Fin 3) = 0 :=
  (by decide +kernel : ∀ t : Fin grid0.N, win0_4.index t (0 : Fin 3) = 0 ∧ win0_4.index t (1 : Fin 3) = 0 ∧ win0_4.index t (2 : Fin 3) = 0)
theorem idx5 : ∀ t : Fin cfg0.N, win0_5.index t (0 : Fin 3) = 0 ∧ win0_5.index t (1 : Fin 3) = 0 ∧ win0_5.index t (2 : Fin 3) = 0 :=
  (by decide +kernel : ∀ t : Fin grid0.N, win0_5.index t (0 : Fin 3) = 0 ∧ win0_5.index t (1 : Fin 3) = 0 ∧ win0_5.index t (2 : Fin 3) = 0)
theorem idx6 : ∀ t : Fin cfg0.N, win0_6.index t (0 : Fin 3) = 0 ∧ win0_6.index t (1 : Fin 3) = 0 ∧ win0_6.index t (2 : Fin 3) = 0 :=
  (by decide +kernel : ∀ t : Fin grid0.N, win0_6.index t (0 : Fin 3) = 0 ∧ win0_6.index t (1 : Fin 3) = 0 ∧ win0_6.index t (2 : Fin 3) = 0)
theorem idx7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx8 : ∀ t : Fin cfg0.N, win0_8.index t (0 : Fin 2) = 0 ∧ win0_8.index t (1 : Fin 2) = 0 :=
  (by decide +kernel : ∀ t : Fin grid0.N, win0_8.index t (0 : Fin 2) = 0 ∧ win0_8.index t (1 : Fin 2) = 0)
theorem idx9 : ∀ t : Fin cfg0.N, win0_9.index t (0 : Fin 2) = t.val ∧ win0_9.index t (1 : Fin 2) = 0 :=
  (by decide +kernel : ∀ t : Fin grid0.N, win0_9.index t (0 : Fin 2) = t.val ∧ win0_9.index t (1 : Fin 2) = 0)

/-- Row `p` of the input block at point `t` is row `4000·t + p` of the inputs. -/
theorem blk0 (c : Dev nD) (t : Fin cfg0.N) (p : Fin 4000) (d : Fin 3) (n : Fin 200000) (hn : n.val = 4000 * t.val + p.val) :
    (iblk m c 0 t : Vec Ideal S4000x3 .f32) (ix2 p d) = argX m c (ix2 n d) := by
  obtain ⟨e0, e1⟩ := idx0 t
  unfold iblk
  rw [View.read_apply]
  show V m c main_arg0 (((cfg0.win 0).blk t).view.emb (ix2 p d)) = argX m c (ix2 n d)
  rw [V_main_arg0]
  refine congrArg (argX m c) (funext fun a => Fin.ext ?_)
  match a with
  | ⟨0, _⟩ => show win0_0.index t (0 : Fin 2) * 4000 + 1 * p.val = n.val; omega
  | ⟨1, _⟩ => show win0_0.index t (1 : Fin 2) * 3 + 1 * d.val = d.val; omega

/-- The staged first matrix is the whole array the host transposed. -/
theorem blk1 (c : Dev nD) (t : Fin cfg0.N) (d : Fin 3) (o : Fin 128) :
    (iblk m c 1 t : Vec Ideal S3x128 .f32) (ix2 d o) = (V m c main_v0 : S3x128.Idx → EReal) (ix2 d o) := by
  obtain ⟨e0, e1⟩ := idx1 t
  unfold iblk
  rw [View.read_apply]
  show (V m c main_v0 : S3x128.Idx → EReal) (((cfg0.win 1).blk t).view.emb (ix2 d o)) = _
  refine congrArg (V m c main_v0 : S3x128.Idx → EReal) (funext fun a => Fin.ext ?_)
  match a with
  | ⟨0, _⟩ => show win0_1.index t (0 : Fin 2) * 3 + 1 * d.val = d.val; omega
  | ⟨1, _⟩ => show win0_1.index t (1 : Fin 2) * 128 + 1 * o.val = o.val; omega

theorem blk2 (c : Dev nD) (t : Fin cfg0.N) (o : Fin 128) :
    (iblk m c 2 t : Vec Ideal S1x128 .f32) (ix2 (0 : Fin 1) o) = (V m c main_v1 : S1x128.Idx → EReal) (ix2 (0 : Fin 1) o) := by
  obtain ⟨e0, e1⟩ := idx2 t
  unfold iblk
  rw [View.read_apply]
  show (V m c main_v1 : S1x128.Idx → EReal) (((cfg0.win 2).blk t).view.emb (ix2 (0 : Fin 1) o)) = _
  refine congrArg (V m c main_v1 : S1x128.Idx → EReal) (funext fun a => Fin.ext ?_)
  match a with
  | ⟨0, _⟩ => show win0_2.index t (0 : Fin 2) * 1 + 1 * 0 = 0; omega
  | ⟨1, _⟩ => show win0_2.index t (1 : Fin 2) * 128 + 1 * o.val = o.val; omega

theorem blk3 (c : Dev nD) (t : Fin cfg0.N) (i : Fin 7) (k o : Fin 128) :
    (iblk m c 3 t : Vec Ideal S7x128x128 .f32) (ix3 i k o) = (V m c main_v10 : S7x128x128.Idx → EReal) (ix3 i k o) := by
  obtain ⟨e0, e1, e2⟩ := idx3 t
  unfold iblk
  rw [View.read_apply]
  show (V m c main_v10 : S7x128x128.Idx → EReal) (((cfg0.win 3).blk t).view.emb (ix3 i k o)) = _
  refine congrArg (V m c main_v10 : S7x128x128.Idx → EReal) (funext fun a => Fin.ext ?_)
  match a with
  | ⟨0, _⟩ => show win0_3.index t (0 : Fin 3) * 7 + 1 * i.val = i.val; omega
  | ⟨1, _⟩ => show win0_3.index t (1 : Fin 3) * 128 + 1 * k.val = k.val; omega
  | ⟨2, _⟩ => show win0_3.index t (2 : Fin 3) * 128 + 1 * o.val = o.val; omega

theorem blk4 (c : Dev nD) (t : Fin cfg0.N) (i : Fin 7) (o : Fin 128) :
    (iblk m c 4 t : Vec Ideal S7x1x128 .f32) (ix3 i (0 : Fin 1) o) = (V m c main_v11 : S7x1x128.Idx → EReal) (ix3 i (0 : Fin 1) o) := by
  obtain ⟨e0, e1, e2⟩ := idx4 t
  unfold iblk
  rw [View.read_apply]
  show (V m c main_v11 : S7x1x128.Idx → EReal) (((cfg0.win 4).blk t).view.emb (ix3 i (0 : Fin 1) o)) = _
  refine congrArg (V m c main_v11 : S7x1x128.Idx → EReal) (funext fun a => Fin.ext ?_)
  match a with
  | ⟨0, _⟩ => show win0_4.index t (0 : Fin 3) * 7 + 1 * i.val = i.val; omega
  | ⟨1, _⟩ => show win0_4.index t (1 : Fin 3) * 1 + 1 * 0 = 0; omega
  | ⟨2, _⟩ => show win0_4.index t (2 : Fin 3) * 128 + 1 * o.val = o.val; omega

theorem blk5 (c : Dev nD) (t : Fin cfg0.N) (i : Fin 7) (k o : Fin 128) :
    (iblk m c 5 t : Vec Ideal S7x128x128 .f32) (ix3 i k o) = (V m c main_v12 : S7x128x128.Idx → EReal) (ix3 i k o) := by
  obtain ⟨e0, e1, e2⟩ := idx5 t
  unfold iblk
  rw [View.read_apply]
  show (V m c main_v12 : S7x128x128.Idx → EReal) (((cfg0.win 5).blk t).view.emb (ix3 i k o)) = _
  refine congrArg (V m c main_v12 : S7x128x128.Idx → EReal) (funext fun a => Fin.ext ?_)
  match a with
  | ⟨0, _⟩ => show win0_5.index t (0 : Fin 3) * 7 + 1 * i.val = i.val; omega
  | ⟨1, _⟩ => show win0_5.index t (1 : Fin 3) * 128 + 1 * k.val = k.val; omega
  | ⟨2, _⟩ => show win0_5.index t (2 : Fin 3) * 128 + 1 * o.val = o.val; omega

theorem blk6 (c : Dev nD) (t : Fin cfg0.N) (i : Fin 7) (o : Fin 128) :
    (iblk m c 6 t : Vec Ideal S7x1x128 .f32) (ix3 i (0 : Fin 1) o) = (V m c main_v13 : S7x1x128.Idx → EReal) (ix3 i (0 : Fin 1) o) := by
  obtain ⟨e0, e1, e2⟩ := idx6 t
  unfold iblk
  rw [View.read_apply]
  show (V m c main_v13 : S7x1x128.Idx → EReal) (((cfg0.win 6).blk t).view.emb (ix3 i (0 : Fin 1) o)) = _
  refine congrArg (V m c main_v13 : S7x1x128.Idx → EReal) (funext fun a => Fin.ext ?_)
  match a with
  | ⟨0, _⟩ => show win0_6.index t (0 : Fin 3) * 7 + 1 * i.val = i.val; omega
  | ⟨1, _⟩ => show win0_6.index t (1 : Fin 3) * 1 + 1 * 0 = 0; omega
  | ⟨2, _⟩ => show win0_6.index t (2 : Fin 3) * 128 + 1 * o.val = o.val; omega

theorem blk7 (c : Dev nD) (t : Fin cfg0.N) (k : Fin 128) :
    (iblk m c 7 t : Vec Ideal S1x128 .f32) (ix2 (0 : Fin 1) k) = argWF m c (ix2 (0 : Fin 1) k) := by
  obtain ⟨e0, e1⟩ := idx7 t
  unfold iblk
  rw [View.read_apply]
  show V m c main_arg7 (((cfg0.win 7).blk t).view.emb (ix2 (0 : Fin 1) k)) = argWF m c (ix2 (0 : Fin 1) k)
  rw [V_main_arg7]
  refine congrArg (argWF m c) (funext fun a => Fin.ext ?_)
  match a with
  | ⟨0, _⟩ => show win0_7.index t (0 : Fin 2) * 1 + 1 * 0 = 0; omega
  | ⟨1, _⟩ => show win0_7.index t (1 : Fin 2) * 128 + 1 * k.val = k.val; omega

theorem blk8 (c : Dev nD) (t : Fin cfg0.N) :
    (iblk m c 8 t : Vec Ideal S1x1 .f32) (ix2 (0 : Fin 1) (0 : Fin 1)) = (V m c main_v14 : S1x1.Idx → EReal) (ix2 (0 : Fin 1) (0 : Fin 1)) := by
  obtain ⟨e0, e1⟩ := idx8 t
  unfold iblk
  rw [View.read_apply]
  show (V m c main_v14 : S1x1.Idx → EReal) (((cfg0.win 8).blk t).view.emb (ix2 (0 : Fin 1) (0 : Fin 1))) = _
  refine congrArg (V m c main_v14 : S1x1.Idx → EReal) (funext fun a => Fin.ext ?_)
  match a with
  | ⟨0, _⟩ => show win0_8.index t (0 : Fin 2) * 1 + 1 * 0 = 0; omega
  | ⟨1, _⟩ => show win0_8.index t (1 : Fin 2) * 1 + 1 * 0 = 0; omega

/-! ## The result array -/

/-- The network over the argument arrays as launched. -/
abbrev result (c : Dev nD) : S200000x1.Idx → EReal :=
  net (argX m c) (argW0 m c) (argB0 m c) (argW1 m c) (argB1 m c) (argW2 m c) (argB2 m c) (argWF m c) (argBF m c)

/-- WHAT POINT `t` WRITES BACK is block `t` of the network over the arguments. -/
theorem flushed_eq (c : Dev nD) (t : Fin cfg0.N) :
    (dats m 0 c).flushed 9 t = ((cfg0.win 9).blk t).view.read (Elt Ideal) (result m c) := by
  show (cfg0.win 9).cut (grid0.coords t) ((dats m 0 c).after 9 t) = _
  rw [after0_9]
  funext j
  obtain ⟨p, q, rfl⟩ : ∃ (p : Fin 4000) (q : Fin 1), j = ix2 p q := ⟨j 0, j 1, eq_ix2 j⟩
  have ht : t.val < 50 := Nat.lt_of_lt_of_eq t.isLt N_0
  obtain ⟨e0, e1⟩ := idx9 t
  rw [View.read_apply]
  show out0_9 (iblk m c 0 t) (iblk m c 1 t) (iblk m c 2 t) (iblk m c 3 t) (iblk m c 4 t) (iblk m c 5 t) (iblk m c 6 t)
      (iblk m c 7 t) (iblk m c 8 t) (ix2 p q) = result m c (((cfg0.win 9).blk t).view.emb (ix2 p q))
  have hemb : ((cfg0.win 9).blk t).view.emb (ix2 p q) = ix2 (⟨4000 * t.val + p.val, by omega⟩ : Fin 200000) q := by
    funext a; apply Fin.ext
    match a with
    | ⟨0, _⟩ => show win0_9.index t (0 : Fin 2) * 4000 + 1 * p.val = 4000 * t.val + p.val; omega
    | ⟨1, _⟩ => show win0_9.index t (1 : Fin 2) * 1 + 1 * q.val = q.val; omega
  rw [hemb]
  exact body_apply (iblk m c 0 t) (iblk m c 1 t) (iblk m c 2 t) (iblk m c 3 t) (iblk m c 4 t) (iblk m c 5 t) (iblk m c 6 t)
    (iblk m c 7 t) (iblk m c 8 t) (argX m c) (argW0 m c) (argB0 m c) (argW1 m c) (argB1 m c) (argW2 m c) (argB2 m c) (argWF m c)
    (argBF m c) ⟨4000 * t.val + p.val, by omega⟩ p q
    (fun d => blk0 m c t p d _ rfl)
    (fun d o => (blk1 m c t d o).trans (first_matrix m c d o))
    (fun o => (blk2 m c t o).trans (first_bias m c o))
    (fun i k o => (blk3 m c t i k o).trans (scaled_stack m c i k o))
    (fun i o => (blk4 m c t i o).trans (bias_stack1 m c i o))
    (fun i k o => (blk5 m c t i k o).trans (plain_stack m c i k o))
    (fun i o => (blk6 m c t i o).trans (bias_stack2 m c i o))
    (fun k => blk7 m c t k)
    ((blk8 m c t).trans (readout_bias m c))

/-- An index of the result array is in point `t`'s block iff its row is one of the block's 4000. -/
theorem mem_blk (t : Fin cfg0.N) (i : S200000x1.Idx) :
    i ∈ ((cfg0.win 9).blk t).view.set ↔ ∀ a : Fin 2, win0_9.index t a * S4000x1.size a ≤ (i a).val ∧ (i a).val < win0_9.index t a * S4000x1.size a + S4000x1.size a := by
  show i ∈ ((View.whole main_v15).slice (win0_9.rect t)).set ↔ _
  rw [View.set_slice_whole, Rect.mem_set_unit]
  exact Iff.rfl

/-- The 50 blocks tile the result array: row `r` is in the block of point `r / 4000`. -/
theorem cover (i : S200000x1.Idx) : ∃ t : Fin cfg0.N, (cfg0.win 9).flush t = true ∧ i ∈ ((cfg0.win 9).blk t).view.set := by
  have hi0 : (i 0).val < 200000 := (i 0).isLt
  have hi1 : (i 1).val < 1 := (i 1).isLt
  have hN : cfg0.N = 50 := N_0
  refine ⟨⟨(i 0).val / 4000, by rw [hN]; omega⟩, flush0_9 _, ?_⟩
  rw [mem_blk]
  obtain ⟨e0, e1⟩ := idx9 ⟨(i 0).val / 4000, by rw [hN]; omega⟩
  intro a
  match a with
  | ⟨0, _⟩ =>
    show win0_9.index _ (0 : Fin 2) * 4000 ≤ (i 0).val ∧ (i 0).val < win0_9.index _ (0 : Fin 2) * 4000 + 4000
    rw [e0]; show (i 0).val / 4000 * 4000 ≤ (i 0).val ∧ (i 0).val < (i 0).val / 4000 * 4000 + 4000; omega
  | ⟨1, _⟩ =>
    show win0_9.index _ (1 : Fin 2) * 1 ≤ (i 1).val ∧ (i 1).val < win0_9.index _ (1 : Fin 2) * 1 + 1
    rw [e1]; omega

/-- So after the run the result array holds the network at every input point. -/
theorem final (c : Dev nD) : (dats m 0 c).arrAt 9 cfg0.N = result m c :=
  (dats m 0 c).arrAt_eq_of_cover 9 (result m c) (fun t _ => flushed_eq m c t) cover

/-- THE KERNEL'S RUN: every weakly fair execution terminates with the result array at the network of the arguments, the
    arguments unchanged. -/
theorem run : θ_run defs (onTc (τ := τ) (main (F := Ideal))) ⟨m, fun _ => 0, ρ⟩ fun r => ∀ c : Dev nD,
      r.2.mem ((c : Thread nD τ).loc main_v15) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨((h c).1 9).trans (final m c),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 7).trans (((dats m 0 c).arrAt_in 7 rfl _).trans ((A_eq m c 7).trans (V_main_arg7 m c))),
      ((h c).2 main_arg8 (Pipeline.mem_restRefs_of main_arg8 (by decide) (by decide))).trans (V_main_arg8 m c)⟩)
    (run_main m ρ)

end Cert.KernelIdeal.Hand

end
-- ==== Proof.RefBody.lean ====
/-
  The reference's arithmetic on the whole [200000,128] hidden array, read one input point (one row) at a time.

  The reference is a chain of whole-array host operations: a first sine layer (a `dot_general` of the [200000,3]
  inputs with the [128,3] matrix contracted on both last axes, the bias broadcast to every row, a scaling by 30, a
  sine), seven residual blocks (the hidden array scaled by c₁, two such layers with [128,128] matrices, the skip
  connection, a scaling by c₂) and a final `dot_general` with the [1,128] read-out row plus a bias. Each acts on every
  ROW separately, so row `n` of each stage is the scalar network of Spec.lean on row `n` of the inputs
  (`first_row`, `sine_row`, `res_row`, `readout_apply`). Matrix `i` of a stack is taken by a slice and a reshape
  (`sliceMat_apply`, `sliceVec_apply`).
-/
import proofs.«166049_j30863634989122_2_alg».proof.Proof.Gen.ReferenceIdeal
import proofs.«166049_j30863634989122_2_alg».proof.Proof.Spec
import proofs.«166049_j30863634989122_2_alg».proof.Proof.LibDot2
import Idealize.ShloMosaic.Lib.ValueLayout
import Idealize.ShloMosaic.PureOps.Ideal.Laws

noncomputable section

open scoped BigOperators

namespace Cert.ReferenceIdeal.Body

open Cert.ReferenceIdeal Cert.ReferenceIdeal.Facts₀ Idealize.ShloMosaic Idealize.ShloMosaic.ValueIdx Cert.Siren

/-! ## The reference's three array functions -/

/-- A scalar constant broadcast to the hidden array. -/
abbrev splat (c : BitVec 32) : FVec Ideal S200000x128 .f32 :=
  broadcastInDim S200000x128 ![] bcast_S_S200000x128 (constant S_ .f32 c)

/-- A bias vector broadcast to every row of the hidden array. -/
abbrev rows (b : FVec Ideal S128 .f32) : FVec Ideal S200000x128 .f32 :=
  broadcastInDim S200000x128 ![0, 1] bcast_S1x128_S200000x128_0_1 (broadcastInDim S1x128 ![1] bcast_S128_S1x128_1 b)

/-- The first sine layer: `sin (30 · (x · w₀ᵀ + b₀))`. -/
def hfirst (x : FVec Ideal S200000x3 .f32) (w0 : FVec Ideal S128x3 .f32) (b0 : FVec Ideal S128 .f32) : FVec Ideal S200000x128 .f32 :=
  Host.sin (mulf (splat 0x41F00000#32) (addf (Host.dotGeneral dot_S200000x3_S128x3_S200000x128_1_1_0_0_n_n none x w0) (rows b0)))

/-- A hidden sine layer: `sin (30 · (h · wᵀ + b))`. -/
def hsine (h : FVec Ideal S200000x128 .f32) (w : FVec Ideal S128x128 .f32) (b : FVec Ideal S128 .f32) : FVec Ideal S200000x128 .f32 :=
  Host.sin (mulf (splat 0x41F00000#32) (addf (Host.dotGeneral dot_S200000x128_S128x128_S200000x128_1_1_0_0_n_n none h w) (rows b)))

/-- A residual block: `c₂ · (h + sine (sine (c₁ · h)))`, the two weights given by their float patterns. -/
def hres (c1 c2 : BitVec 32) (h : FVec Ideal S200000x128 .f32) (w1 : FVec Ideal S128x128 .f32) (b1 : FVec Ideal S128 .f32)
    (w2 : FVec Ideal S128x128 .f32) (b2 : FVec Ideal S128 .f32) : FVec Ideal S200000x128 .f32 :=
  mulf (splat c2) (addf h (hsine (hsine (mulf (splat c1) h) w1 b1) w2 b2))

/-! ## One row at a time -/

/-- Row `n` of the hidden array. -/
abbrev hrow (h : FVec Ideal S200000x128 .f32) (n : Fin 200000) : Fin 128 → EReal := fun k => h (ix2 n k)
/-- A [128,K] matrix by (output unit, input unit). -/
abbrev matOf {K : Nat} (w : FVec Ideal ⟨2, ![128, K]⟩ .f32) : Fin 128 → Fin K → EReal := fun o k => w (ix2 o k)
/-- A bias vector. -/
abbrev vecOf (b : FVec Ideal S128 .f32) : Fin 128 → EReal := fun o => b (ix1 o)

/-- A constant splat reads its constant everywhere. -/
theorem splat_apply (c : BitVec 32) (j : S200000x128.Idx) : splat c j = Ideal.ofBits .f32 c := rfl

/-- The bias broadcast reads the bias of the row's unit. -/
theorem rows_apply (b : FVec Ideal S128 .f32) (n : Fin 200000) (o : Fin 128) : rows b (ix2 n o) = b (ix1 o) :=
  (broadcastInDim_apply _ _ _ (ix2 n o) (ix2 (0 : Fin 1) o) fun a => by
      match a with
      | ⟨0, _⟩ => rfl
      | ⟨1, _⟩ => rfl).trans
    (broadcastInDim_apply _ _ _ (ix2 (0 : Fin 1) o) (ix1 o) fun a => by
      match a with
      | ⟨0, _⟩ => rfl)

/-- Row `n` of the first sine layer is the scalar layer of row `n` of the inputs. -/
theorem first_row (x : FVec Ideal S200000x3 .f32) (w0 : FVec Ideal S128x3 .f32) (b0 : FVec Ideal S128 .f32) (n : Fin 200000) :
    hrow (hfirst x w0 b0) n = dense (fun d : Fin 3 => x (ix2 n d)) (matOf w0) (vecOf b0) := by
  funext o
  have e : Host.dotGeneral dot_S200000x3_S128x3_S200000x128_1_1_0_0_n_n none x w0 (ix2 n o)
      = ∑ c : Fin 3, x (ix2 n c) * w0 (ix2 o c) :=
    LibDot2.dotGeneral_nt_apply dot_S200000x3_S128x3_S200000x128_1_1_0_0_n_n_wf none x w0 n o
  show Ideal.sin (splat 0x41F00000#32 (ix2 n o)
    * (Host.dotGeneral dot_S200000x3_S128x3_S200000x128_1_1_0_0_n_n none x w0 (ix2 n o) + rows b0 (ix2 n o))) = _
  rw [e, rows_apply, splat_apply]
  rfl

/-- Row `n` of a hidden sine layer is the scalar layer of row `n`. -/
theorem sine_row (h : FVec Ideal S200000x128 .f32) (w : FVec Ideal S128x128 .f32) (b : FVec Ideal S128 .f32) (n : Fin 200000) :
    hrow (hsine h w b) n = dense (hrow h n) (matOf w) (vecOf b) := by
  funext o
  have e : Host.dotGeneral dot_S200000x128_S128x128_S200000x128_1_1_0_0_n_n none h w (ix2 n o)
      = ∑ c : Fin 128, h (ix2 n c) * w (ix2 o c) :=
    LibDot2.dotGeneral_nt_apply dot_S200000x128_S128x128_S200000x128_1_1_0_0_n_n_wf none h w n o
  show Ideal.sin (splat 0x41F00000#32 (ix2 n o)
    * (Host.dotGeneral dot_S200000x128_S128x128_S200000x128_1_1_0_0_n_n none h w (ix2 n o) + rows b (ix2 n o))) = _
  rw [e, rows_apply, splat_apply]
  rfl

/-- Row `n` of a residual block is the scalar residual block of row `n`. -/
theorem res_row (c1 c2 : BitVec 32) (h : FVec Ideal S200000x128 .f32) (w1 : FVec Ideal S128x128 .f32) (b1 : FVec Ideal S128 .f32)
    (w2 : FVec Ideal S128x128 .f32) (b2 : FVec Ideal S128 .f32) (n : Fin 200000) :
    hrow (hres c1 c2 h w1 b1 w2 b2) n
      = block (Ideal.ofBits .f32 c1) (Ideal.ofBits .f32 c2) (hrow h n) (matOf w1) (vecOf b1) (matOf w2) (vecOf b2) := by
  funext o
  show splat c2 (ix2 n o) * (h (ix2 n o) + hrow (hsine (hsine (mulf (splat c1) h) w1 b1) w2 b2) n o) = _
  rw [sine_row, sine_row, splat_apply]
  rfl

/-! ## Matrix `i` of a stack, bias vector `i` of a stack -/

/-- Matrix `i` of a stack of seven, cut out by a slice and viewed [128,128]: entry (o, k) is the stack's (i, o, k). -/
theorem sliceMat_apply (w : FVec Ideal S7x128x128 .f32) (i : Nat) (hi : i < 7) (hs : S7x128x128.Slices ![i, 0, 0] S1x128x128)
    (o k : Fin 128) :
    shapeCast S128x128 (extractStridedSlice S1x128x128 ![i, 0, 0] w hs) shapeCasts_S1x128x128_S128x128 (ix2 o k)
      = w (ix3 (⟨i, hi⟩ : Fin 7) o k) :=
  (shapeCast_1ab_ab_apply _ _ o k).trans
    (extractStridedSlice_apply _ _ _ (ix3 (0 : Fin 1) o k) (ix3 (⟨i, hi⟩ : Fin 7) o k) fun a => by
      match a with
      | ⟨0, _⟩ => show i = i + 0; omega
      | ⟨1, _⟩ => show o.val = 0 + o.val; omega
      | ⟨2, _⟩ => show k.val = 0 + k.val; omega)

/-- Bias vector `i` of a stack of seven, cut out by a slice and viewed [128]: entry o is the stack's (i, o). -/
theorem sliceVec_apply (b : FVec Ideal S7x128 .f32) (i : Nat) (hi : i < 7) (hs : S7x128.Slices ![i, 0] S1x128) (o : Fin 128) :
    shapeCast S128 (extractStridedSlice S1x128 ![i, 0] b hs) shapeCasts_S1x128_S128 (ix1 o) = b (ix2 (⟨i, hi⟩ : Fin 7) o) :=
  (shapeCast_1a_a_apply _ _ o).trans
    (extractStridedSlice_apply _ _ _ (ix2 (0 : Fin 1) o) (ix2 (⟨i, hi⟩ : Fin 7) o) fun a => by
      match a with
      | ⟨0, _⟩ => show i = i + 0; omega
      | ⟨1, _⟩ => show o.val = 0 + o.val; omega)

/-! ## The read-out -/

/-- The read-out at input point `n`: the hidden row times the read-out row, summed, plus the one bias. -/
theorem readout_apply (h : FVec Ideal S200000x128 .f32) (wf : FVec Ideal S1x128 .f32) (bf : FVec Ideal S1 .f32) (n : Fin 200000) (q : Fin 1) :
    addf (Host.dotGeneral dot_S200000x128_S1x128_S200000x1_1_1_0_0_n_n none h wf)
        (broadcastInDim S200000x1 ![0, 1] bcast_S1x1_S200000x1_0_1 (broadcastInDim S1x1 ![1] bcast_S1_S1x1_1 bf)) (ix2 n q)
      = ∑ k : Fin 128, h (ix2 n k) * wf (ix2 (0 : Fin 1) k) + bf (ix1 (0 : Fin 1)) := by
  have hq : q = (0 : Fin 1) := Fin.ext (by omega)
  subst hq
  have e : Host.dotGeneral dot_S200000x128_S1x128_S200000x1_1_1_0_0_n_n none h wf (ix2 n (0 : Fin 1))
      = ∑ c : Fin 128, h (ix2 n c) * wf (ix2 (0 : Fin 1) c) :=
    LibDot2.dotGeneral_nt_apply dot_S200000x128_S1x128_S200000x1_1_1_0_0_n_n_wf none h wf n (0 : Fin 1)
  have e2 : broadcastInDim S200000x1 ![0, 1] bcast_S1x1_S200000x1_0_1 (broadcastInDim S1x1 ![1] bcast_S1_S1x1_1 bf) (ix2 n (0 : Fin 1))
      = bf (ix1 (0 : Fin 1)) :=
    (broadcastInDim_apply _ _ _ (ix2 n (0 : Fin 1)) (ix2 (0 : Fin 1) (0 : Fin 1)) fun a => by
        match a with
        | ⟨0, _⟩ => rfl
        | ⟨1, _⟩ => rfl).trans
      (broadcastInDim_apply _ _ _ (ix2 (0 : Fin 1) (0 : Fin 1)) (ix1 (0 : Fin 1)) fun a => by
        match a with
        | ⟨0, _⟩ => rfl)
  show Host.dotGeneral dot_S200000x128_S1x128_S200000x1_1_1_0_0_n_n none h wf (ix2 n (0 : Fin 1))
    + broadcastInDim S200000x1 ![0, 1] bcast_S1x1_S200000x1_0_1 (broadcastInDim S1x1 ![1] bcast_S1_S1x1_1 bf) (ix2 n (0 : Fin 1)) = _
  rw [e, e2]

end Cert.ReferenceIdeal.Body

end
-- ==== Proof.RefValue.lean ====
/-
  The reference's result array is the network of Spec.lean at every input point.

  The reference's run ends with its result at one composed term of the arguments: the read-out of the seventh residual
  block over the sixth … over the first sine layer. Each named stage is one of the array functions of RefBody.lean
  applied to the stage before it (`stage0`, `stage1` … `stage6`, `result_term`, each by unfolding), so row `n` of each
  stage is the scalar layer of row `n` of the stage before (`row0` … `row6`), and the result at input point `n` is the
  read-out of the last hidden row (`result_eq`).
-/
import proofs.«166049_j30863634989122_2_alg».proof.Proof.Gen.ReferenceIdeal.Run
import proofs.«166049_j30863634989122_2_alg».proof.Proof.RefBody

noncomputable section

open scoped BigOperators

namespace Cert.ReferenceIdeal.RefValue

open Cert.ReferenceIdeal Cert.ReferenceIdeal.Value Idealize.ShloMosaic Idealize.ShloMosaic.TcCoe Idealize.SL.Sem Idealize.ShloMosaic.StableHlo
open Idealize.ShloMosaic.ValueIdx Cert.Siren Cert.ReferenceIdeal.Body

variable (V0 : Valuation τ sig (Elt Ideal))

/-! ## The argument arrays, typed as arrays of extended reals -/

abbrev argX : FVec Ideal S200000x3 .f32 := V0 (Proc.devRef .tc main_arg0)
abbrev argW0 : FVec Ideal S128x3 .f32 := V0 (Proc.devRef .tc main_arg1)
abbrev argB0 : FVec Ideal S128 .f32 := V0 (Proc.devRef .tc main_arg2)
abbrev argW1 : FVec Ideal S7x128x128 .f32 := V0 (Proc.devRef .tc main_arg3)
abbrev argB1 : FVec Ideal S7x128 .f32 := V0 (Proc.devRef .tc main_arg4)
abbrev argW2 : FVec Ideal S7x128x128 .f32 := V0 (Proc.devRef .tc main_arg5)
abbrev argB2 : FVec Ideal S7x128 .f32 := V0 (Proc.devRef .tc main_arg6)
abbrev argWF : FVec Ideal S1x128 .f32 := V0 (Proc.devRef .tc main_arg7)
abbrev argBF : FVec Ideal S1 .f32 := V0 (Proc.devRef .tc main_arg8)

/-- Matrix `i` of a stack, as the reference cuts it out. -/
abbrev matI (w : FVec Ideal S7x128x128 .f32) (i : Nat) (hs : S7x128x128.Slices ![i, 0, 0] S1x128x128) : FVec Ideal S128x128 .f32 :=
  shapeCast S128x128 (extractStridedSlice S1x128x128 ![i, 0, 0] w hs) Facts₀.shapeCasts_S1x128x128_S128x128
/-- Bias vector `i` of a stack, as the reference cuts it out. -/
abbrev vecI (b : FVec Ideal S7x128 .f32) (i : Nat) (hs : S7x128.Slices ![i, 0] S1x128) : FVec Ideal S128 .f32 :=
  shapeCast S128 (extractStridedSlice S1x128 ![i, 0] b hs) Facts₀.shapeCasts_S1x128_S128

/-! ## Each named stage is an array function of the stage before -/

theorem stage0 : res_main_v6 V0 = hfirst (argX V0) (argW0 V0) (argB0 V0) := rfl

theorem stage1 : res_main_v33 V0 = hres 0x3F800000#32 0x3F800000#32 (res_main_v6 V0)
    (matI (argW1 V0) 0 Facts₀.slices_S7x128x128_S1x128x128_0_0_0) (vecI (argB1 V0) 0 Facts₀.slices_S7x128_S1x128_0_0)
    (matI (argW2 V0) 0 Facts₀.slices_S7x128x128_S1x128x128_0_0_0) (vecI (argB2 V0) 0 Facts₀.slices_S7x128_S1x128_0_0) := rfl

theorem stage2 : res_main_v60 V0 = hres 0x3F000000#32 0x3F800000#32 (res_main_v33 V0)
    (matI (argW1 V0) 1 Facts₀.slices_S7x128x128_S1x128x128_1_0_0) (vecI (argB1 V0) 1 Facts₀.slices_S7x128_S1x128_1_0)
    (matI (argW2 V0) 1 Facts₀.slices_S7x128x128_S1x128x128_1_0_0) (vecI (argB2 V0) 1 Facts₀.slices_S7x128_S1x128_1_0) := rfl

theorem stage3 : res_main_v87 V0 = hres 0x3F000000#32 0x3F800000#32 (res_main_v60 V0)
    (matI (argW1 V0) 2 Facts₀.slices_S7x128x128_S1x128x128_2_0_0) (vecI (argB1 V0) 2 Facts₀.slices_S7x128_S1x128_2_0)
    (matI (argW2 V0) 2 Facts₀.slices_S7x128x128_S1x128x128_2_0_0) (vecI (argB2 V0) 2 Facts₀.slices_S7x128_S1x128_2_0) := rfl

theorem stage4 : res_main_v114 V0 = hres 0x3F000000#32 0x3F800000#32 (res_main_v87 V0)
    (matI (argW1 V0) 3 Facts₀.slices_S7x128x128_S1x128x128_3_0_0) (vecI (argB1 V0) 3 Facts₀.slices_S7x128_S1x128_3_0)
    (matI (argW2 V0) 3 Facts₀.slices_S7x128x128_S1x128x128_3_0_0) (vecI (argB2 V0) 3 Facts₀.slices_S7x128_S1x128_3_0) := rfl

theorem stage5 : res_main_v141 V0 = hres 0x3F000000#32 0x3F800000#32 (res_main_v114 V0)
    (matI (argW1 V0) 4 Facts₀.slices_S7x128x128_S1x128x128_4_0_0) (vecI (argB1 V0) 4 Facts₀.slices_S7x128_S1x128_4_0)
    (matI (argW2 V0) 4 Facts₀.slices_S7x128x128_S1x128x128_4_0_0) (vecI (argB2 V0) 4 Facts₀.slices_S7x128_S1x128_4_0) := rfl

theorem stage6 : res_main_v168 V0 = hres 0x3F000000#32 0x3F800000#32 (res_main_v141 V0)
    (matI (argW1 V0) 5 Facts₀.slices_S7x128x128_S1x128x128_5_0_0) (vecI (argB1 V0) 5 Facts₀.slices_S7x128_S1x128_5_0)
    (matI (argW2 V0) 5 Facts₀.slices_S7x128x128_S1x128x128_5_0_0) (vecI (argB2 V0) 5 Facts₀.slices_S7x128_S1x128_5_0) := rfl

/-- The term the reference's run ends with: the read-out of the seventh residual block. -/
def resultTerm : FVec Ideal S200000x1 .f32 :=
  addf (Host.dotGeneral dot_S200000x128_S1x128_S200000x1_1_1_0_0_n_n none
      (hres 0x3F000000#32 0x3F000000#32 (res_main_v168 V0)
        (matI (argW1 V0) 6 Facts₀.slices_S7x128x128_S1x128x128_6_0_0) (vecI (argB1 V0) 6 Facts₀.slices_S7x128_S1x128_6_0)
        (matI (argW2 V0) 6 Facts₀.slices_S7x128x128_S1x128x128_6_0_0) (vecI (argB2 V0) 6 Facts₀.slices_S7x128_S1x128_6_0))
      (argWF V0))
    (broadcastInDim S200000x1 ![0, 1] Facts₀.bcast_S1x1_S200000x1_0_1 (broadcastInDim S1x1 ![1] Facts₀.bcast_S1_S1x1_1 (argBF V0)))

/-! ## One row at a time -/

theorem mat_row (w : FVec Ideal S7x128x128 .f32) (i : Nat) (hi : i < 7) (hs : S7x128x128.Slices ![i, 0, 0] S1x128x128) :
    matOf (matI w i hs) = mat w (⟨i, hi⟩ : Fin 7) :=
  funext fun o => funext fun k => sliceMat_apply w i hi hs o k

theorem vec_row (b : FVec Ideal S7x128 .f32) (i : Nat) (hi : i < 7) (hs : S7x128.Slices ![i, 0] S1x128) :
    vecOf (vecI b i hs) = vec b (⟨i, hi⟩ : Fin 7) :=
  funext fun o => sliceVec_apply b i hi hs o

/-- Row `n` of residual block `i` over the argument stacks is the scalar residual block `i` of row `n`. -/
theorem layer_row (c1 c2 : BitVec 32) (i : Nat) (hi : i < 7) (hs3 : S7x128x128.Slices ![i, 0, 0] S1x128x128)
    (hs4 : S7x128.Slices ![i, 0] S1x128) (h : FVec Ideal S200000x128 .f32)
    (w1 : FVec Ideal S7x128x128 .f32) (b1 : FVec Ideal S7x128 .f32) (w2 : FVec Ideal S7x128x128 .f32) (b2 : FVec Ideal S7x128 .f32)
    (n : Fin 200000) :
    hrow (hres c1 c2 h (matI w1 i hs3) (vecI b1 i hs4) (matI w2 i hs3) (vecI b2 i hs4)) n
      = layer w1 b1 w2 b2 (⟨i, hi⟩ : Fin 7) (Ideal.ofBits .f32 c1) (Ideal.ofBits .f32 c2) (hrow h n) := by
  rw [res_row, mat_row w1 i hi, vec_row b1 i hi, mat_row w2 i hi, vec_row b2 i hi]

theorem row0 (n : Fin 200000) : hrow (res_main_v6 V0) n = hidden0 (argX V0) (argW0 V0) (argB0 V0) n := by
  rw [stage0]; exact first_row _ _ _ n

/-- Row `n` of the stage after the sixth residual block … -/
theorem row6 (n : Fin 200000) :
    hrow (res_main_v168 V0) n
      = layer (argW1 V0) (argB1 V0) (argW2 V0) (argB2 V0) ⟨5, by decide⟩ half one
        (layer (argW1 V0) (argB1 V0) (argW2 V0) (argB2 V0) ⟨4, by decide⟩ half one
          (layer (argW1 V0) (argB1 V0) (argW2 V0) (argB2 V0) ⟨3, by decide⟩ half one
            (layer (argW1 V0) (argB1 V0) (argW2 V0) (argB2 V0) ⟨2, by decide⟩ half one
              (layer (argW1 V0) (argB1 V0) (argW2 V0) (argB2 V0) ⟨1, by decide⟩ half one
                (layer (argW1 V0) (argB1 V0) (argW2 V0) (argB2 V0) ⟨0, by decide⟩ one one
                  (hidden0 (argX V0) (argW0 V0) (argB0 V0) n)))))) := by
  rw [stage6, layer_row _ _ 5 (by decide), stage5, layer_row _ _ 4 (by decide), stage4, layer_row _ _ 3 (by decide),
    stage3, layer_row _ _ 2 (by decide), stage2, layer_row _ _ 1 (by decide), stage1, layer_row _ _ 0 (by decide), row0]

/-- THE REFERENCE'S RESULT is the network at every input point. -/
theorem result_eq : resultTerm V0
    = net (argX V0) (argW0 V0) (argB0 V0) (argW1 V0) (argB1 V0) (argW2 V0) (argB2 V0) (argWF V0) (argBF V0) := by
  funext j
  obtain ⟨n, q, rfl⟩ : ∃ (n : Fin 200000) (q : Fin 1), j = ix2 n q := ⟨j 0, j 1, eq_ix2 j⟩
  unfold resultTerm
  rw [readout_apply]
  unfold net hidden7
  have e : (fun k => hres 0x3F000000#32 0x3F000000#32 (res_main_v168 V0)
        (matI (argW1 V0) 6 Facts₀.slices_S7x128x128_S1x128x128_6_0_0) (vecI (argB1 V0) 6 Facts₀.slices_S7x128_S1x128_6_0)
        (matI (argW2 V0) 6 Facts₀.slices_S7x128x128_S1x128x128_6_0_0) (vecI (argB2 V0) 6 Facts₀.slices_S7x128_S1x128_6_0) (ix2 n k))
      = layer (argW1 V0) (argB1 V0) (argW2 V0) (argB2 V0) ⟨6, by decide⟩ half half (hrow (res_main_v168 V0) n) :=
    layer_row _ _ 6 (by decide) _ _ _ _ _ _ _ n
  rw [show (∑ k : Fin 128, hres 0x3F000000#32 0x3F000000#32 (res_main_v168 V0)
        (matI (argW1 V0) 6 Facts₀.slices_S7x128x128_S1x128x128_6_0_0) (vecI (argB1 V0) 6 Facts₀.slices_S7x128_S1x128_6_0)
        (matI (argW2 V0) 6 Facts₀.slices_S7x128x128_S1x128x128_6_0_0) (vecI (argB2 V0) 6 Facts₀.slices_S7x128_S1x128_6_0) (ix2 n k)
          * argWF V0 (ix2 (0 : Fin 1) k))
      = ∑ k : Fin 128, layer (argW1 V0) (argB1 V0) (argW2 V0) (argB2 V0) ⟨6, by decide⟩ half half (hrow (res_main_v168 V0) n) k
          * argWF V0 (ix2 (0 : Fin 1) k) from Finset.sum_congr rfl fun k _ => by rw [← e]]
  rw [row6]

end Cert.ReferenceIdeal.RefValue

end
-- ==== Proof.lean ====
/-
  The proof of `Cert.Claim` for the sine network with residual blocks.

  The three frames are the generated ones (the reference's is its generated run with the result dropped); the kernel's
  idealization rewrote nothing, so `preserves` is trivial. For `algebraic`: at the ideal values the kernel's result
  array ends at the network of Spec.lean over its arguments (KernelValue.lean: the body's arithmetic on each block of
  4000 input points, the weight arrays as the host operations laid them out, the blocks tiling the array), the
  reference's at the same network over its arguments (RefValue.lean: its composed term read row by row), and the
  arguments agree. The one algebraic step between the two sides — the ½ that one program puts on the hidden vector and
  the other on the matrix — uses only that multiplication of extended reals is commutative and associative, so the
  precondition is never opened.
-/
import proofs.«166049_j30863634989122_2_alg».proof.Defs
import proofs.«166049_j30863634989122_2_alg».proof.Proof.Gen.Kernel
import proofs.«166049_j30863634989122_2_alg».proof.Proof.Gen.Kernel.Skeleton
import proofs.«166049_j30863634989122_2_alg».proof.Proof.Gen.Kernel.Launch
import proofs.«166049_j30863634989122_2_alg».proof.Proof.Gen.Kernel.Points
import proofs.«166049_j30863634989122_2_alg».proof.Proof.Gen.Kernel.Frame
import proofs.«166049_j30863634989122_2_alg».proof.Proof.Gen.KernelIdeal
import proofs.«166049_j30863634989122_2_alg».proof.Proof.Gen.KernelIdeal.Skeleton
import proofs.«166049_j30863634989122_2_alg».proof.Proof.Gen.KernelIdeal.Launch
import proofs.«166049_j30863634989122_2_alg».proof.Proof.Gen.KernelIdeal.Points
import proofs.«166049_j30863634989122_2_alg».proof.Proof.Gen.KernelIdeal.Frame
import proofs.«166049_j30863634989122_2_alg».proof.Proof.Gen.ReferenceIdeal
import proofs.«166049_j30863634989122_2_alg».proof.Proof.Gen.Pre_finite_inputs
import proofs.«166049_j30863634989122_2_alg».proof.Proof.Gen.ReferenceIdeal.Run
import proofs.«166049_j30863634989122_2_alg».proof.Proof.KernelValue
import proofs.«166049_j30863634989122_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the network of their arguments in the result array, and the arguments agree. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  show Cert.ReferenceIdeal.RefValue.resultTerm (StableHlo.launchContents m' c) = _
  rw [Cert.ReferenceIdeal.RefValue.result_eq]
  obtain ⟨a0, a1, a2, a3, a4, a5, a6, a7, a8⟩ := hagree c
  show Cert.Siren.net (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      (m' ((c.tc : Thread Cert.ReferenceIdeal.nD Cert.ReferenceIdeal.τ).loc Cert.ReferenceIdeal.main_arg7))
      (m' ((c.tc : Thread Cert.ReferenceIdeal.nD Cert.ReferenceIdeal.τ).loc Cert.ReferenceIdeal.main_arg8)) = _
  rw [a0, a1, a2, a3, a4, a5, a6, a7, a8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
